-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16x1024x1024 : Shape := ⟨3, ![16, 1024, 1024]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S16384x512 .f32) (main_arg1 : FVec F S16x1024x1024 .f32) (main_arg2 : FVec F S512x512 .f32) (main_arg3 : FVec F S512x512 .f32) (main_arg4 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16384x512 : Shape := ⟨2, ![16384, 512]⟩
abbrev S16x1024x1024 : Shape := ⟨3, ![16, 1024, 1024]⟩
abbrev S512x512 : Shape := ⟨2, ![512, 512]⟩
abbrev S2048x512 : Shape := ⟨2, ![2048, 512]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16x1024x1024, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S2x1024x1024, .f32⟩
  | .local _ .vmem, ⟨3, _⟩ => ⟨S2x1024x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S2048x512, .f32⟩
  | .local _ .vmem, ⟨8, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S2x1024x1024_S1x1024x1024_1_0_0 : ∀ a, (![1, 0, 0] : Fin 3 → Nat) a + S1x1024x1024.size a ≤ S2x1024x1024.size a
  inb_S2048x512_S1024x512_0_0 : ∀ a, (![0, 0] : Fin 2 → Nat) a + S1024x512.size a ≤ S2048x512.size a
  h_S1024x512 : 0 < S1024x512.numel
  inb_S2048x512_S1024x512_1024_0 : ∀ a, (![1024, 0] : Fin 2 → Nat) a + S1024x512.size a ≤ S2048x512.size a
  inb_S512x512_S512x512_0_0 : ∀ a, (![0, 0] : Fin 2 → Nat) a + S512x512.size a ≤ S512x512.size a
  h_S512x512 : 0 < S512x512.numel
  slices_S1024x1024_o0_0_S1024x512 : S1024x1024.Slices ![0, 0] S1024x512
  slices_S1024x512_o0_0_S512x512 : S1024x512.Slices ![0, 0] S512x512
  slices_S1024x1024_o0_512_S1024x512 : S1024x1024.Slices ![0, 512] S1024x512
  slices_S1024x512_o512_0_S512x512 : S1024x512.Slices ![512, 0] S512x512
  reduces_S1024x512_S1024 : S1024x512.Reduces [1] S1024
  shapeCasts_S1024_S1024x1 : S1024.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .f32 = 32 ∨ (Rect.block (s := S16x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x512.size a
  hwx0_5 : ∀ i : grid0.Coords, EltTy.bits .f32 = 32 ∨ (Rect.block (s := S16384x512) S2048x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S16x1024x1024 : Shape := ⟨3, ![16, 1024, 1024]⟩
abbrev S512x512 : Shape := ⟨2, ![512, 512]⟩
abbrev S16x1024x512 : Shape := ⟨3, ![16, 1024, 512]⟩
abbrev S_ : Shape := ⟨0, ![]⟩
abbrev S16384 : Shape := ⟨1, ![16384]⟩
abbrev S16384x1 : Shape := ⟨2, ![16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x1024, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S16384x512, .f32⟩
  | .hbm, ⟨7, _⟩ => ⟨S16x1024x512, .f32⟩
  | .hbm, ⟨8, _⟩ => ⟨S16x1024x512, .f32⟩
  | .hbm, ⟨9, _⟩ => ⟨S16x1024x512, .f32⟩
  | .hbm, ⟨10, _⟩ => ⟨S16384x512, .f32⟩
  | .hbm, ⟨11, _⟩ => ⟨S512x512, .f32⟩
  | .hbm, ⟨12, _⟩ => ⟨S16384x512, .f32⟩
  | .hbm, ⟨13, _⟩ => ⟨S16x1024x512, .f32⟩
  | .hbm, ⟨14, _⟩ => ⟨S16x1024x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S512x512, .f32⟩
  | .hbm, ⟨20, _⟩ => ⟨S16384x512, .f32⟩
  | .hbm, ⟨21, _⟩ => ⟨S16x1024x512, .f32⟩
  | .hbm, ⟨22, _⟩ => ⟨S16x1024x512, .f32⟩
  | .hbm, ⟨23, _⟩ => ⟨S16x1024x512, .f32⟩
  | .hbm, ⟨24, _⟩ => ⟨S16384x512, .f32⟩
  | .hbm, ⟨25, _⟩ => ⟨S512x512, .f32⟩
  | .hbm, ⟨26, _⟩ => ⟨S16384x512, .f32⟩
  | .hbm, ⟨27, _⟩ => ⟨S16x1024x512, .f32⟩
  | .hbm, ⟨28, _⟩ => ⟨S16x1024x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S512x512, .f32⟩
  | .hbm, ⟨34, _⟩ => ⟨S16384x512, .f32⟩
  | .hbm, ⟨35, _⟩ => ⟨S16x1024x512, .f32⟩
  | .hbm, ⟨36, _⟩ => ⟨S16x1024x512, .f32⟩
  | .hbm, ⟨37, _⟩ => ⟨S16x1024x512, .f32⟩
  | .hbm, ⟨38, _⟩ => ⟨S16384x512, .f32⟩
  | .hbm, ⟨39, _⟩ => ⟨S512x512, .f32⟩
  | .hbm, ⟨40, _⟩ => ⟨S16384x512, .f32⟩
  | .hbm, ⟨41, _⟩ => ⟨S16x1024x512, .f32⟩
  | .hbm, ⟨42, _⟩ => ⟨S16x1024x512, .f32⟩
  | .hbm, ⟨43, _⟩ => ⟨S16384x512, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1, .f32⟩
  | .hbm, ⟨57, _⟩ => ⟨S16384x512, .f32⟩
  | .hbm, ⟨58, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call1_cst : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call2_cst : Ref sig .tc := ⟨.hbm, 44, rfl⟩
abbrev main_call2_v0 : Ref sig .tc := ⟨.hbm, 45, rfl⟩
abbrev main_call2_cst_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_cst_1 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  transposes_S512x512_S512x512_1_0 : S512x512.Transposes [1, 0] S512x512
  shapeCasts_S16384x512_S16x1024x512 : S16384x512.ShapeCasts S16x1024x512
  shapeCasts_S16x1024x512_S16384x512 : S16x1024x512.ShapeCasts S16384x512
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  dot_S16384x512_S512x512_S16384x512_1_0_0_1_n_n_wf : DotDims.WF S16384x512 S512x512 S16384x512 [1] [0] [0] [1] [] []
  dot_S16x1024x1024_S16x1024x512_S16x1024x512_2_1_1_2_0_0_wf : DotDims.WF S16x1024x1024 S16x1024x512 S16x1024x512 [2] [1] [1] [2] [0] [0]

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf

class Facts : Prop extends Facts₀ where

variable [Facts]
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.Spec.lean ====
/-
  The network on one block of 1024 nodes, entry by entry.

  A block has an adjacency matrix `A` (1024 × 1024), features `h` (1024 × 512) and, per layer, a weight matrix `W`
  (512 × 512, applied transposed). One layer sends `h` to `(h + A · h) · Wᵀ`, the product `A · h` accumulated over
  the lower and the upper half of the neighbours separately; a rectifier follows each of the first two layers, and the
  third layer's rows are normalised by a log-softmax taken against the row's maximum. The matrices are curried
  functions of their two positions, so that the same text serves any array the entries are read from.
-/
import Idealize.ShloMosaic.PureOps.Ideal
import Idealize.ShloMosaic.Lib.ValueIdx

noncomputable section

open scoped BigOperators

namespace Cert.Spec

open Idealize.ShloMosaic Idealize.ShloMosaic.ValueIdx

/-- A rank-two array as a function of its two positions. -/
def cur {a b : ℕ} (v : (⟨2, ![a, b]⟩ : Shape).Idx → EReal) : Fin a → Fin b → EReal := fun i j => v (ix2 i j)

/-- Neighbour `j` of the lower half, and of the upper half. -/
def lo (j : Fin 512) : Fin 1024 := ⟨j.val, by have := j.isLt; omega⟩
def hi (j : Fin 512) : Fin 1024 := ⟨512 + j.val, by have := j.isLt; omega⟩

/-- One layer on one block: entry (r, f) of `(h + A · h) · Wᵀ`. -/
def layerB (A : Fin 1024 → Fin 1024 → EReal) (h : Fin 1024 → Fin 512 → EReal) (W : Fin 512 → Fin 512 → EReal) :
    Fin 1024 → Fin 512 → EReal :=
  fun r f => ∑ k : Fin 512, (h r k + (∑ j : Fin 512, A r (lo j) * h (lo j) k + ∑ j : Fin 512, A r (hi j) * h (hi j) k)) * W f k

/-- The rectifier. -/
def reluB (h : Fin 1024 → Fin 512 → EReal) : Fin 1024 → Fin 512 → EReal := fun r f => max (h r f) 0

/-- A row's maximum, taken from the bottom element. -/
def rowMax (h : Fin 1024 → Fin 512 → EReal) (r : Fin 1024) : EReal :=
  (Finset.univ : Finset (Fin 512)).fold max ⊥ (fun k => h r k)

/-- The log-softmax of each row: the entry less (the logarithm of the sum of the row's exponentials, each shifted by the
    row's maximum, plus that maximum). -/
def lsmB (h : Fin 1024 → Fin 512 → EReal) : Fin 1024 → Fin 512 → EReal :=
  fun r f => h r f - (Ideal.log (∑ k : Fin 512, Ideal.exp (h r k - rowMax h r)) + rowMax h r)

/-- The three layers and the log-softmax on one block. -/
def netB (A : Fin 1024 → Fin 1024 → EReal) (X : Fin 1024 → Fin 512 → EReal) (W1 W2 W3 : Fin 512 → Fin 512 → EReal) :
    Fin 1024 → Fin 512 → EReal :=
  lsmB (layerB A (reluB (layerB A (reluB (layerB A X W1)) W2)) W3)

end Cert.Spec

end
-- ==== Proof.KernelBlock.lean ====
/-
  What the kernel's body computes for one block of 1024 nodes, read entry by entry.

  The body handles two blocks per grid point, each by the same chain of operations: per layer two matrix products of
  the halves of the adjacency block with the halves of the features (into zero accumulators), their sum added to the
  features, and a product with the weights contracted on the weights' second axis; a maximum with zero after the first
  two layers; and for the third layer's result the row maximum, the shifted exponentials' row sum, its logarithm plus
  the maximum, subtracted from the row. Read at the exact instance every change of float format is the identity, so
  the chain is the block network of the specification on the entries of the loaded blocks.
-/
import proofs.«148717_g20993800142881_cont_sun_c4_339_25_alg».proof.Proof.Gen.KernelIdeal.Skeleton
import proofs.«148717_g20993800142881_cont_sun_c4_339_25_alg».proof.Proof.LibDotPlain
import proofs.«148717_g20993800142881_cont_sun_c4_339_25_alg».proof.Proof.LibDotNT
import proofs.«148717_g20993800142881_cont_sun_c4_339_25_alg».proof.Proof.LibRowReduce
import proofs.«148717_g20993800142881_cont_sun_c4_339_25_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Spec

/-! ## The chain of operations, named -/

/-- The product of the lower halves: the adjacency block's first 512 columns against the features' first 512 rows. -/
def mmLo (A : FVec Ideal S1024x1024 .bf16) (hb : FVec Ideal S1024x512 .bf16) : FVec Ideal S1024x512 .f32 :=
  matmul dot_S1024x512_S512x512_S1024x512_1_0_0_1_n_n none (extractStridedSlice S1024x512 ![0, 0] A slices_S1024x1024_o0_0_S1024x512)
    (extractStridedSlice S512x512 ![0, 0] hb slices_S1024x512_o0_0_S512x512) (constant (F := Ideal) S1024x512 .f32 0x00000000#32)

/-- The product of the upper halves. -/
def mmHi (A : FVec Ideal S1024x1024 .bf16) (hb : FVec Ideal S1024x512 .bf16) : FVec Ideal S1024x512 .f32 :=
  matmul dot_S1024x512_S512x512_S1024x512_1_0_0_1_n_n none (extractStridedSlice S1024x512 ![0, 512] A slices_S1024x1024_o0_512_S1024x512)
    (extractStridedSlice S512x512 ![512, 0] hb slices_S1024x512_o512_0_S512x512) (constant (F := Ideal) S1024x512 .f32 0x00000000#32)

/-- One layer's operations. -/
def kLayerOps (A : FVec Ideal S1024x1024 .bf16) (h : FVec Ideal S1024x512 .f32) (Wb : FVec Ideal S512x512 .bf16) : FVec Ideal S1024x512 .f32 :=
  matmul dot_S1024x512_S512x512_S1024x512_1_1_0_0_n_n none
    (truncf .bf16 (addf h (addf (mmLo A (truncf .bf16 h bitsLt_bf16_f32)) (mmHi A (truncf .bf16 h bitsLt_bf16_f32)))) bitsLt_bf16_f32)
    Wb (constant (F := Ideal) S1024x512 .f32 0x00000000#32)

/-- The rectifier's operations. -/
def reluOps (h : FVec Ideal S1024x512 .f32) : FVec Ideal S1024x512 .f32 :=
  maximumf h (broadcast S1024x512 (Scalar.ofBits .f32 0x00000000#32))

/-- The row maximum as a column. -/
def rowMaxCol (h : FVec Ideal S1024x512 .f32) : FVec Ideal S1024x1 .f32 :=
  shapeCast S1024x1 (multiReduction .maximumf [1] S1024 h 0xFF800000#32 reduces_S1024x512_S1024 (.inl rfl) rfl) shapeCasts_S1024_S1024x1

/-- The log-softmax's operations. -/
def lsmOps (h : FVec Ideal S1024x512 .f32) : FVec Ideal S1024x512 .f32 :=
  subf h (broadcastTo S1024x512 (addf (log (shapeCast S1024x1 (multiReduction .add [1] S1024
      (exp (subf h (broadcastTo S1024x512 (rowMaxCol h) broadcasts_S1024x1_S1024x512))) 0x00000000#32 reduces_S1024x512_S1024 (.inl rfl) rfl)
      shapeCasts_S1024_S1024x1)) (rowMaxCol h)) broadcasts_S1024x1_S1024x512)

/-- The whole chain for one block, from the adjacency block (already cast), the features and the three weight blocks. -/
def netOps (A : FVec Ideal S1024x1024 .bf16) (X : FVec Ideal S1024x512 .f32) (W1 W2 W3 : FVec Ideal S512x512 .f32) : FVec Ideal S1024x512 .f32 :=
  lsmOps (kLayerOps A (reluOps (kLayerOps A (reluOps (kLayerOps A X (truncf .bf16 W1 bitsLt_bf16_f32))) (truncf .bf16 W2 bitsLt_bf16_f32)))
    (truncf .bf16 W3 bitsLt_bf16_f32))

/-! ## The body's two stored values are that chain -/

/-- The value stored for the first block. -/
theorem piece0_eq (a0 : Vec Ideal S1x1024x1024 .f32) (x0 : Vec Ideal S1024x512 .f32) (w1 w2 w3 : Vec Ideal S512x512 .f32) :
    k0_pay1 (k0_pay11 (k0_pay3 a0) (k0_pay6 a0 x0 w1) w2 w3) (k0_pay12 (k0_pay3 a0) (k0_pay6 a0 x0 w1) w2 w3) (k0_pay13 (k0_pay3 a0) (k0_pay6 a0 x0 w1) w2 w3)
      = netOps (k0_pay3 a0) x0 w1 w2 w3 := rfl

/-- The value stored for the second block. -/
theorem piece1_eq (a1 : Vec Ideal S1x1024x1024 .f32) (x1 : Vec Ideal S1024x512 .f32) (w1 w2 w3 : Vec Ideal S512x512 .f32) :
    k0_pay2 (k0_pay4 a1) (k0_pay9 (k0_pay4 a1) (k0_pay7 a1 x1 w1) w2) (k0_pay10 w3) = netOps (k0_pay4 a1) x1 w1 w2 w3 := rfl

/-! ## The operations at an entry -/

theorem isPlain : DotPlain.IsPlain dot_S1024x512_S512x512_S1024x512_1_0_0_1_n_n := ⟨rfl, rfl, rfl, rfl, rfl, rfl⟩
theorem isNT : DotNT.IsNT dot_S1024x512_S512x512_S1024x512_1_1_0_0_n_n := ⟨rfl, rfl, rfl, rfl, rfl, rfl⟩

theorem mmLo_apply (A : FVec Ideal S1024x1024 .bf16) (hb : FVec Ideal S1024x512 .bf16) (i : S1024x512.Idx) :
    mmLo A hb i = ∑ j : Fin 512, A (ix2 (i 0) (lo j)) * hb (ix2 (lo j) (i 1)) := by
  unfold mmLo
  rw [DotPlain.matmul_zero_apply isPlain]
  refine Finset.sum_congr rfl fun j _ => ?_
  rw [slice2_axis1_apply 0 A slices_S1024x1024_o0_0_S1024x512 (i 0) j (lo j) (Nat.zero_add _).symm,
    slice2_axis0_apply 0 hb slices_S1024x512_o0_0_S512x512 j (i 1) (lo j) (Nat.zero_add _).symm]

theorem mmHi_apply (A : FVec Ideal S1024x1024 .bf16) (hb : FVec Ideal S1024x512 .bf16) (i : S1024x512.Idx) :
    mmHi A hb i = ∑ j : Fin 512, A (ix2 (i 0) (hi j)) * hb (ix2 (hi j) (i 1)) := by
  unfold mmHi
  rw [DotPlain.matmul_zero_apply isPlain]
  refine Finset.sum_congr rfl fun j _ => ?_
  rw [slice2_axis1_apply 512 A slices_S1024x1024_o0_512_S1024x512 (i 0) j (hi j) rfl,
    slice2_axis0_apply 512 hb slices_S1024x512_o512_0_S512x512 j (i 1) (hi j) rfl]

/-- One layer's operations are the specification's layer on the entries. -/
theorem cur_kLayerOps (A : FVec Ideal S1024x1024 .bf16) (h : FVec Ideal S1024x512 .f32) (Wb : FVec Ideal S512x512 .bf16) :
    cur (kLayerOps A h Wb) = layerB (cur A) (cur h) (cur Wb) := by
  funext r f
  show kLayerOps A h Wb (ix2 r f) = _
  unfold kLayerOps
  rw [DotNT.matmul_zero_apply isNT]
  refine Finset.sum_congr rfl fun k _ => ?_
  show (h (ix2 r k) + (mmLo A (truncf .bf16 h bitsLt_bf16_f32) (ix2 r k) + mmHi A (truncf .bf16 h bitsLt_bf16_f32) (ix2 r k))) * Wb (ix2 f k) = _
  rw [mmLo_apply, mmHi_apply]
  rfl

theorem ofBits_zero : (Scalar.ofBits .f32 0x00000000#32 : Ideal .f32) = 0 := Ideal.ofBits_zero_f32

/-- The rectifier's operations are the specification's rectifier on the entries. -/
theorem cur_reluOps (h : FVec Ideal S1024x512 .f32) : cur (reluOps h) = reluB (cur h) := by
  funext r f
  show max (h (ix2 r f)) (Scalar.ofBits .f32 0x00000000#32 : Ideal .f32) = max (h (ix2 r f)) 0
  rw [ofBits_zero]

theorem ofBits_neg_inf : Ideal.ofBits .f32 0xFF800000#32 = (⊥ : EReal) := by
  simp [Ideal.ofBits, Ideal.ieee]

theorem rowMaxCol_apply (h : FVec Ideal S1024x512 .f32) (r : Fin 1024) (u : Fin 1) : rowMaxCol h (ix2 r u) = rowMax (cur h) r := by
  unfold rowMaxCol
  rw [RowReduce.shapeCast_a_a1_apply]
  refine (RowReduce.rowMax_apply h 0xFF800000#32 reduces_S1024x512_S1024 _ _ r).trans ?_
  rw [ofBits_neg_inf]
  rfl

/-- The log-softmax's operations are the specification's log-softmax on the entries. -/
theorem cur_lsmOps (h : FVec Ideal S1024x512 .f32) : cur (lsmOps h) = lsmB (cur h) := by
  funext r f
  have hb : ∀ k : Fin 512, broadcastTo S1024x512 (rowMaxCol h) broadcasts_S1024x1_S1024x512 (ix2 r k) = rowMax (cur h) r := fun k => by
    rw [RowReduce.broadcastTo_a1_ab_apply, rowMaxCol_apply]
  have hsum : multiReduction .add [1] S1024 (exp (subf h (broadcastTo S1024x512 (rowMaxCol h) broadcasts_S1024x1_S1024x512))) 0x00000000#32
        reduces_S1024x512_S1024 (.inl rfl) rfl (ix1 r)
      = ∑ k : Fin 512, Ideal.exp (h (ix2 r k) - rowMax (cur h) r) :=
    (RowReduce.rowSum_apply _ 0x00000000#32 reduces_S1024x512_S1024 (.inl rfl) rfl r).trans (Finset.sum_congr rfl fun k _ => by
      show Ideal.exp (h (ix2 r k) - broadcastTo S1024x512 (rowMaxCol h) broadcasts_S1024x1_S1024x512 (ix2 r k)) = _
      rw [hb k])
  show lsmOps h (ix2 r f) = _
  unfold lsmOps
  rw [subf_apply, RowReduce.broadcastTo_a1_ab_apply, addf_apply, rowMaxCol_apply]
  show h (ix2 r f) - (Ideal.log (shapeCast S1024x1 _ shapeCasts_S1024_S1024x1 (ix2 r (0 : Fin 1))) + rowMax (cur h) r) = _
  rw [RowReduce.shapeCast_a_a1_apply, hsum]
  rfl

/-- THE BLOCK'S CHAIN IS THE BLOCK NETWORK of the specification on the entries of its operands. -/
theorem cur_netOps (A : FVec Ideal S1024x1024 .bf16) (X : FVec Ideal S1024x512 .f32) (W1 W2 W3 : FVec Ideal S512x512 .f32) :
    cur (netOps A X W1 W2 W3) = netB (cur A) (cur X) (cur W1) (cur W2) (cur W3) := by
  unfold netOps netB
  rw [cur_lsmOps, cur_kLayerOps, cur_reluOps, cur_kLayerOps, cur_reluOps, cur_kLayerOps]
  rfl

end Cert.KernelIdeal.Block

end
-- ==== Proof.LibAfter.lean ====
/-
  The fold of a line of host operations over buffer contents, for a line given in two pieces.
-/
import Idealize.ShloMosaic.Lib.StableHlo.Run

noncomputable section

namespace Cert.Lib.After

open Idealize.ShloMosaic Idealize.ShloMosaic.StableHlo

variable {τ : Topo} {sig : RefSig} {Val : EltTy → Type}

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- One more operation in front. -/
theorem after_cons' (op : HloOp τ sig Val) (l : List (HloOp τ sig Val)) (V : Valuation τ sig Val) :
    after (op :: l) V = after l (op.result V) := rfl

end Cert.Lib.After

end
-- ==== Proof.RefRun.lean ====
/-
  The reference network's run, read back layer by layer.

  The reference is a straight line of 54 host operations: three graph-convolution layers — each a product of the features
  with the transposed weights, a batched product of the adjacency blocks with the features, a second product with the
  transposed weights, and the sum of the two — with a rectifier after the first two, and a row-wise log-softmax at the
  end. The line is cut after each layer; the contents after one piece are one named function (`rLayer`, `relu`,
  `lsm`) of the contents before it, and the contents after the whole line are the composition `net` of the argument
  arrays. The argument arrays are written by no operation.
-/
import proofs.«148717_g20993800142881_cont_sun_c4_339_25_alg».proof.Proof.Gen.ReferenceIdeal
import proofs.«148717_g20993800142881_cont_sun_c4_339_25_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.After

variable {F : FTy → Type} [FloatOps F]

/-! ## The layers as functions of arrays -/

/-- One graph-convolution layer on the whole feature array: `h · Wᵀ + (A ⊛ h) · Wᵀ`, the batched product `A ⊛ h` taken
    block by block over the sixteen 1024-row blocks. -/
def rLayer (h : (⟨S16384x512, .f32⟩ : BufTy).Contents (Elt F)) (A : (⟨S16x1024x1024, .f32⟩ : BufTy).Contents (Elt F)) (W : (⟨S512x512, .f32⟩ : BufTy).Contents (Elt F)) : (⟨S16384x512, .f32⟩ : BufTy).Contents (Elt F) :=
  shapeCast _ (addf
      (shapeCast _ (Host.dotGeneral dot_S16384x512_S512x512_S16384x512_1_0_0_1_n_n none h (transpose S512x512 [1, 0] W transposes_S512x512_S512x512_1_0)) shapeCasts_S16384x512_S16x1024x512)
      (shapeCast _ (Host.dotGeneral dot_S16384x512_S512x512_S16384x512_1_0_0_1_n_n none
          (shapeCast _ (Host.dotGeneral dot_S16x1024x1024_S16x1024x512_S16x1024x512_2_1_1_2_0_0 none A (shapeCast _ h shapeCasts_S16384x512_S16x1024x512)) shapeCasts_S16x1024x512_S16384x512)
          (transpose S512x512 [1, 0] W transposes_S512x512_S512x512_1_0)) shapeCasts_S16384x512_S16x1024x512))
    shapeCasts_S16x1024x512_S16384x512

/-- The rectifier: the entrywise maximum with zero. -/
def relu (h : (⟨S16384x512, .f32⟩ : BufTy).Contents (Elt F)) : (⟨S16384x512, .f32⟩ : BufTy).Contents (Elt F) :=
  maximumf h (broadcastInDim S16384x512 ![] bcast_S_S16384x512 (constant S_ .f32 0x00000000#32))

/-- The row maximum, kept as a column and spread back over the row. -/
def rowMaxB (x : (⟨S16384x512, .f32⟩ : BufTy).Contents (Elt F)) : (⟨S16384x512, .f32⟩ : BufTy).Contents (Elt F) :=
  broadcastInDim S16384x512 ![0, 1] bcast_S16384x1_S16384x512_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x512_S16384_d1 h_S_)))

/-- The logarithm of a row's sum, kept as a column and spread back over the row. -/
def logSumB (e : (⟨S16384x512, .f32⟩ : BufTy).Contents (Elt F)) : (⟨S16384x512, .f32⟩ : BufTy).Contents (Elt F) :=
  broadcastInDim S16384x512 ![0, 1] bcast_S16384x1_S16384x512_0_1 (Host.log (broadcastInDim S16384x1 ![0] bcast_S16384_S16384x1_0
    (Host.reduceAdd e (constant S_ .f32 0x00000000#32) reducesTo_S16384x512_S16384_d1 h_S_)))

/-- The row-wise log-softmax: the row shifted by its maximum, less the logarithm of the sum of the shifted row's exponentials. -/
def lsm (x : (⟨S16384x512, .f32⟩ : BufTy).Contents (Elt F)) : (⟨S16384x512, .f32⟩ : BufTy).Contents (Elt F) :=
  subf (subf x (rowMaxB x)) (logSumB (Host.exp (subf x (rowMaxB x))))

/-- The whole network as a function of the five argument arrays. -/
def net (x : (⟨S16384x512, .f32⟩ : BufTy).Contents (Elt F)) (A : (⟨S16x1024x1024, .f32⟩ : BufTy).Contents (Elt F)) (W1 W2 W3 : (⟨S512x512, .f32⟩ : BufTy).Contents (Elt F)) : (⟨S16384x512, .f32⟩ : BufTy).Contents (Elt F) :=
  lsm (rLayer (relu (rLayer (relu (rLayer x A W1)) A W2)) A W3)

/-! ## The line of operations, whole and in four pieces -/

/-- @main's 54 operations, in order (a called function's operations stand in its call's place). -/
abbrev ops : List (HloOp τ sig (Elt F)) :=
  [ unary main_arg2 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v1 main_v2 rfl shapeCasts_S16384x512_S16x1024x512,
    reshape main_arg0 main_v3 rfl shapeCasts_S16384x512_S16x1024x512,
    binary main_arg1 main_v3 main_v4 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v4 main_v5 rfl shapeCasts_S16x1024x512_S16384x512,
    unary main_arg2 main_v6 ((transpose S512x512 [1, 0] · transposes_S512x512_S512x512_1_0) : (⟨S512x512, .f32⟩ : BufTy).Contents (Elt F) → (⟨S512x512, .f32⟩ : BufTy).Contents (Elt F)),
    binary main_v5 main_v6 main_v7 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v7 main_v8 rfl shapeCasts_S16384x512_S16x1024x512,
    binary main_v2 main_v8 main_v9 (addf : (⟨S16x1024x512, .f32⟩ : BufTy).Contents (Elt F) → (⟨S16x1024x512, .f32⟩ : BufTy).Contents (Elt F) → (⟨S16x1024x512, .f32⟩ : BufTy).Contents (Elt F)),
    reshape main_v9 main_v10 rfl shapeCasts_S16x1024x512_S16384x512,
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v10) (TRef.of (T := ⟨S16384x512, .f32⟩) main_call0_v0) (TRef.of (T := ⟨S16384x512, .f32⟩) main_v11) maximumf,
    unary main_arg3 main_v12 ((transpose S512x512 [1, 0] · transposes_S512x512_S512x512_1_0) : (⟨S512x512, .f32⟩ : BufTy).Contents (Elt F) → (⟨S512x512, .f32⟩ : BufTy).Contents (Elt F)),
    binary main_v11 main_v12 main_v13 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v13 main_v14 rfl shapeCasts_S16384x512_S16x1024x512,
    reshape main_v11 main_v15 rfl shapeCasts_S16384x512_S16x1024x512,
    binary main_arg1 main_v15 main_v16 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v16 main_v17 rfl shapeCasts_S16x1024x512_S16384x512,
    unary main_arg3 main_v18 ((transpose S512x512 [1, 0] · transposes_S512x512_S512x512_1_0) : (⟨S512x512, .f32⟩ : BufTy).Contents (Elt F) → (⟨S512x512, .f32⟩ : BufTy).Contents (Elt F)),
    binary main_v17 main_v18 main_v19 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v19 main_v20 rfl shapeCasts_S16384x512_S16x1024x512,
    binary main_v14 main_v20 main_v21 (addf : (⟨S16x1024x512, .f32⟩ : BufTy).Contents (Elt F) → (⟨S16x1024x512, .f32⟩ : BufTy).Contents (Elt F) → (⟨S16x1024x512, .f32⟩ : BufTy).Contents (Elt F)),
    reshape main_v21 main_v22 rfl shapeCasts_S16x1024x512_S16384x512,
    TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v22) (TRef.of (T := ⟨S16384x512, .f32⟩) main_call1_v0) (TRef.of (T := ⟨S16384x512, .f32⟩) main_v23) maximumf,
    unary main_arg4 main_v24 ((transpose S512x512 [1, 0] · transposes_S512x512_S512x512_1_0) : (⟨S512x512, .f32⟩ : BufTy).Contents (Elt F) → (⟨S512x512, .f32⟩ : BufTy).Contents (Elt F)),
    binary main_v23 main_v24 main_v25 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v25 main_v26 rfl shapeCasts_S16384x512_S16x1024x512,
    reshape main_v23 main_v27 rfl shapeCasts_S16384x512_S16x1024x512,
    binary main_arg1 main_v27 main_v28 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v28 main_v29 rfl shapeCasts_S16x1024x512_S16384x512,
    unary main_arg4 main_v30 ((transpose S512x512 [1, 0] · transposes_S512x512_S512x512_1_0) : (⟨S512x512, .f32⟩ : BufTy).Contents (Elt F) → (⟨S512x512, .f32⟩ : BufTy).Contents (Elt F)),
    binary main_v29 main_v30 main_v31 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v31 main_v32 rfl shapeCasts_S16384x512_S16x1024x512,
    binary main_v26 main_v32 main_v33 (addf : (⟨S16x1024x512, .f32⟩ : BufTy).Contents (Elt F) → (⟨S16x1024x512, .f32⟩ : BufTy).Contents (Elt F) → (⟨S16x1024x512, .f32⟩ : BufTy).Contents (Elt F)),
    reshape main_v33 main_v34 rfl shapeCasts_S16x1024x512_S16384x512,
    TRef.nullary (TRef.of (T := ⟨S_, .f32⟩) main_call2_cst) (constant S_ .f32 0xFF800000#32),
    TRef.binary (TRef.of (T := ⟨S16384x512, .f32⟩) main_v34) (TRef.of (T := ⟨S_, .f32⟩) main_call2_cst) (TRef.of (T := ⟨S16384, .f32⟩) main_call2_v0) (fun x v => Host.reduce FloatOps.maximumf x v reducesTo_S16384x512_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x512, .f32⟩) main_call2_v4) (broadcastInDim S16384x512 ![0, 1] bcast_S16384x1_S16384x512_0_1),
    TRef.binary (TRef.of (T := ⟨S16384x512, .f32⟩) main_v34) (TRef.of (T := ⟨S16384x512, .f32⟩) main_call2_v4) (TRef.of (T := ⟨S16384x512, .f32⟩) main_call2_v5) subf,
    TRef.unary (TRef.of (T := ⟨S16384x512, .f32⟩) main_call2_v5) (TRef.of (T := ⟨S16384x512, .f32⟩) main_call2_v6) Host.exp,
    TRef.nullary (TRef.of (T := ⟨S_, .f32⟩) main_call2_cst_1) (constant S_ .f32 0x00000000#32),
    TRef.binary (TRef.of (T := ⟨S16384x512, .f32⟩) main_call2_v6) (TRef.of (T := ⟨S_, .f32⟩) main_call2_cst_1) (TRef.of (T := ⟨S16384, .f32⟩) main_call2_v7) (fun x v => Host.reduceAdd x v reducesTo_S16384x512_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x512, .f32⟩) main_call2_v10) (broadcastInDim S16384x512 ![0, 1] bcast_S16384x1_S16384x512_0_1),
    TRef.binary (TRef.of (T := ⟨S16384x512, .f32⟩) main_call2_v5) (TRef.of (T := ⟨S16384x512, .f32⟩) main_call2_v10) (TRef.of (T := ⟨S16384x512, .f32⟩) main_v35) subf ]

/-- The first layer and its rectifier. -/
abbrev ops1 : List (HloOp τ sig (Elt F)) :=
  [ unary main_arg2 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v1 main_v2 rfl shapeCasts_S16384x512_S16x1024x512,
    reshape main_arg0 main_v3 rfl shapeCasts_S16384x512_S16x1024x512,
    binary main_arg1 main_v3 main_v4 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v4 main_v5 rfl shapeCasts_S16x1024x512_S16384x512,
    unary main_arg2 main_v6 ((transpose S512x512 [1, 0] · transposes_S512x512_S512x512_1_0) : (⟨S512x512, .f32⟩ : BufTy).Contents (Elt F) → (⟨S512x512, .f32⟩ : BufTy).Contents (Elt F)),
    binary main_v5 main_v6 main_v7 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v7 main_v8 rfl shapeCasts_S16384x512_S16x1024x512,
    binary main_v2 main_v8 main_v9 (addf : (⟨S16x1024x512, .f32⟩ : BufTy).Contents (Elt F) → (⟨S16x1024x512, .f32⟩ : BufTy).Contents (Elt F) → (⟨S16x1024x512, .f32⟩ : BufTy).Contents (Elt F)),
    reshape main_v9 main_v10 rfl shapeCasts_S16x1024x512_S16384x512,
    TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v10) (TRef.of (T := ⟨S16384x512, .f32⟩) main_call0_v0) (TRef.of (T := ⟨S16384x512, .f32⟩) main_v11) maximumf ]

/-- The second layer and its rectifier. -/
abbrev ops2 : List (HloOp τ sig (Elt F)) :=
  [ unary main_arg3 main_v12 ((transpose S512x512 [1, 0] · transposes_S512x512_S512x512_1_0) : (⟨S512x512, .f32⟩ : BufTy).Contents (Elt F) → (⟨S512x512, .f32⟩ : BufTy).Contents (Elt F)),
    binary main_v11 main_v12 main_v13 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v13 main_v14 rfl shapeCasts_S16384x512_S16x1024x512,
    reshape main_v11 main_v15 rfl shapeCasts_S16384x512_S16x1024x512,
    binary main_arg1 main_v15 main_v16 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v16 main_v17 rfl shapeCasts_S16x1024x512_S16384x512,
    unary main_arg3 main_v18 ((transpose S512x512 [1, 0] · transposes_S512x512_S512x512_1_0) : (⟨S512x512, .f32⟩ : BufTy).Contents (Elt F) → (⟨S512x512, .f32⟩ : BufTy).Contents (Elt F)),
    binary main_v17 main_v18 main_v19 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v19 main_v20 rfl shapeCasts_S16384x512_S16x1024x512,
    binary main_v14 main_v20 main_v21 (addf : (⟨S16x1024x512, .f32⟩ : BufTy).Contents (Elt F) → (⟨S16x1024x512, .f32⟩ : BufTy).Contents (Elt F) → (⟨S16x1024x512, .f32⟩ : BufTy).Contents (Elt F)),
    reshape main_v21 main_v22 rfl shapeCasts_S16x1024x512_S16384x512,
    TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v22) (TRef.of (T := ⟨S16384x512, .f32⟩) main_call1_v0) (TRef.of (T := ⟨S16384x512, .f32⟩) main_v23) maximumf ]

/-- The third layer. -/
abbrev ops3 : List (HloOp τ sig (Elt F)) :=
  [ unary main_arg4 main_v24 ((transpose S512x512 [1, 0] · transposes_S512x512_S512x512_1_0) : (⟨S512x512, .f32⟩ : BufTy).Contents (Elt F) → (⟨S512x512, .f32⟩ : BufTy).Contents (Elt F)),
    binary main_v23 main_v24 main_v25 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v25 main_v26 rfl shapeCasts_S16384x512_S16x1024x512,
    reshape main_v23 main_v27 rfl shapeCasts_S16384x512_S16x1024x512,
    binary main_arg1 main_v27 main_v28 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v28 main_v29 rfl shapeCasts_S16x1024x512_S16384x512,
    unary main_arg4 main_v30 ((transpose S512x512 [1, 0] · transposes_S512x512_S512x512_1_0) : (⟨S512x512, .f32⟩ : BufTy).Contents (Elt F) → (⟨S512x512, .f32⟩ : BufTy).Contents (Elt F)),
    binary main_v29 main_v30 main_v31 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v31 main_v32 rfl shapeCasts_S16384x512_S16x1024x512,
    binary main_v26 main_v32 main_v33 (addf : (⟨S16x1024x512, .f32⟩ : BufTy).Contents (Elt F) → (⟨S16x1024x512, .f32⟩ : BufTy).Contents (Elt F) → (⟨S16x1024x512, .f32⟩ : BufTy).Contents (Elt F)),
    reshape main_v33 main_v34 rfl shapeCasts_S16x1024x512_S16384x512 ]

/-- The log-softmax. -/
abbrev ops4 : List (HloOp τ sig (Elt F)) :=
  [ TRef.nullary (TRef.of (T := ⟨S_, .f32⟩) main_call2_cst) (constant S_ .f32 0xFF800000#32),
    TRef.binary (TRef.of (T := ⟨S16384x512, .f32⟩) main_v34) (TRef.of (T := ⟨S_, .f32⟩) main_call2_cst) (TRef.of (T := ⟨S16384, .f32⟩) main_call2_v0) (fun x v => Host.reduce FloatOps.maximumf x v reducesTo_S16384x512_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x512, .f32⟩) main_call2_v4) (broadcastInDim S16384x512 ![0, 1] bcast_S16384x1_S16384x512_0_1),
    TRef.binary (TRef.of (T := ⟨S16384x512, .f32⟩) main_v34) (TRef.of (T := ⟨S16384x512, .f32⟩) main_call2_v4) (TRef.of (T := ⟨S16384x512, .f32⟩) main_call2_v5) subf,
    TRef.unary (TRef.of (T := ⟨S16384x512, .f32⟩) main_call2_v5) (TRef.of (T := ⟨S16384x512, .f32⟩) main_call2_v6) Host.exp,
    TRef.nullary (TRef.of (T := ⟨S_, .f32⟩) main_call2_cst_1) (constant S_ .f32 0x00000000#32),
    TRef.binary (TRef.of (T := ⟨S16384x512, .f32⟩) main_call2_v6) (TRef.of (T := ⟨S_, .f32⟩) main_call2_cst_1) (TRef.of (T := ⟨S16384, .f32⟩) main_call2_v7) (fun x v => Host.reduceAdd x v reducesTo_S16384x512_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x512, .f32⟩) main_call2_v10) (broadcastInDim S16384x512 ![0, 1] bcast_S16384x1_S16384x512_0_1),
    TRef.binary (TRef.of (T := ⟨S16384x512, .f32⟩) main_call2_v5) (TRef.of (T := ⟨S16384x512, .f32⟩) main_call2_v10) (TRef.of (T := ⟨S16384x512, .f32⟩) main_v35) subf ]

theorem ops_split : (ops : List (HloOp τ sig (Elt F))) = ops1 ++ (ops2 ++ (ops3 ++ ops4)) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., unary_bufs_sub .., binary_bufs_sub .., unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., unary_bufs_sub .., binary_bufs_sub .., unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The contents after each piece, from any contents before it -/

theorem c1_res (V : Valuation τ sig (Elt F)) :
    after (ops1 (F := F)) V (Proc.devRef .tc main_v11) = relu (rLayer (V (Proc.devRef .tc main_arg0)) (V (Proc.devRef .tc main_arg1)) (V (Proc.devRef .tc main_arg2))) := by
  after_results; rfl
theorem c1_a0 (V : Valuation τ sig (Elt F)) :
    after (ops1 (F := F)) V (Proc.devRef .tc main_arg0) = V (Proc.devRef .tc main_arg0) := by
  after_results
theorem c1_a1 (V : Valuation τ sig (Elt F)) :
    after (ops1 (F := F)) V (Proc.devRef .tc main_arg1) = V (Proc.devRef .tc main_arg1) := by
  after_results
theorem c1_a2 (V : Valuation τ sig (Elt F)) :
    after (ops1 (F := F)) V (Proc.devRef .tc main_arg2) = V (Proc.devRef .tc main_arg2) := by
  after_results
theorem c1_a3 (V : Valuation τ sig (Elt F)) :
    after (ops1 (F := F)) V (Proc.devRef .tc main_arg3) = V (Proc.devRef .tc main_arg3) := by
  after_results
theorem c1_a4 (V : Valuation τ sig (Elt F)) :
    after (ops1 (F := F)) V (Proc.devRef .tc main_arg4) = V (Proc.devRef .tc main_arg4) := by
  after_results

theorem c2_res (V : Valuation τ sig (Elt F)) :
    after (ops2 (F := F)) V (Proc.devRef .tc main_v23) = relu (rLayer (V (Proc.devRef .tc main_v11)) (V (Proc.devRef .tc main_arg1)) (V (Proc.devRef .tc main_arg3))) := by
  after_results; rfl
theorem c2_a0 (V : Valuation τ sig (Elt F)) :
    after (ops2 (F := F)) V (Proc.devRef .tc main_arg0) = V (Proc.devRef .tc main_arg0) := by
  after_results
theorem c2_a1 (V : Valuation τ sig (Elt F)) :
    after (ops2 (F := F)) V (Proc.devRef .tc main_arg1) = V (Proc.devRef .tc main_arg1) := by
  after_results
theorem c2_a2 (V : Valuation τ sig (Elt F)) :
    after (ops2 (F := F)) V (Proc.devRef .tc main_arg2) = V (Proc.devRef .tc main_arg2) := by
  after_results
theorem c2_a3 (V : Valuation τ sig (Elt F)) :
    after (ops2 (F := F)) V (Proc.devRef .tc main_arg3) = V (Proc.devRef .tc main_arg3) := by
  after_results
theorem c2_a4 (V : Valuation τ sig (Elt F)) :
    after (ops2 (F := F)) V (Proc.devRef .tc main_arg4) = V (Proc.devRef .tc main_arg4) := by
  after_results

theorem c3_res (V : Valuation τ sig (Elt F)) :
    after (ops3 (F := F)) V (Proc.devRef .tc main_v34) = rLayer (V (Proc.devRef .tc main_v23)) (V (Proc.devRef .tc main_arg1)) (V (Proc.devRef .tc main_arg4)) := by
  after_results; rfl
theorem c3_a0 (V : Valuation τ sig (Elt F)) :
    after (ops3 (F := F)) V (Proc.devRef .tc main_arg0) = V (Proc.devRef .tc main_arg0) := by
  after_results
theorem c3_a1 (V : Valuation τ sig (Elt F)) :
    after (ops3 (F := F)) V (Proc.devRef .tc main_arg1) = V (Proc.devRef .tc main_arg1) := by
  after_results
theorem c3_a2 (V : Valuation τ sig (Elt F)) :
    after (ops3 (F := F)) V (Proc.devRef .tc main_arg2) = V (Proc.devRef .tc main_arg2) := by
  after_results
theorem c3_a3 (V : Valuation τ sig (Elt F)) :
    after (ops3 (F := F)) V (Proc.devRef .tc main_arg3) = V (Proc.devRef .tc main_arg3) := by
  after_results
theorem c3_a4 (V : Valuation τ sig (Elt F)) :
    after (ops3 (F := F)) V (Proc.devRef .tc main_arg4) = V (Proc.devRef .tc main_arg4) := by
  after_results

/-- Contents carried to a buffer's own type and back are the contents. -/
theorem ofBuf_toBuf {T : BufTy} (x : TRef sig T) (v : T.Contents (Elt F)) : x.ofBuf (x.toBuf v) = v := by
  obtain ⟨r, h, h2, h3⟩ := x
  subst h
  rfl

theorem rd34 (V : Valuation τ sig (Elt F)) :
    (TRef.of (T := ⟨S16384x512, .f32⟩) main_v34).ofBuf (V (Proc.devRef .tc main_v34)) = V (Proc.devRef .tc main_v34) := rfl
theorem rd35 (V : Valuation τ sig (Elt F)) :
    (TRef.of (T := ⟨S16384x512, .f32⟩) main_v35).ofBuf (V (Proc.devRef .tc main_v35)) = V (Proc.devRef .tc main_v35) := rfl

theorem c4_cast (V : Valuation τ sig (Elt F)) :
    (TRef.of (T := ⟨S16384x512, .f32⟩) main_v35).ofBuf (after (ops4 (F := F)) V (Proc.devRef .tc main_v35)) = lsm ((TRef.of (T := ⟨S16384x512, .f32⟩) main_v34).ofBuf (V (Proc.devRef .tc main_v34))) := by
  after_results
  simp only [ofBuf_toBuf]
  rfl

theorem c4_res (V : Valuation τ sig (Elt F)) :
    after (ops4 (F := F)) V (Proc.devRef .tc main_v35) = lsm (V (Proc.devRef .tc main_v34)) :=
  (rd35 (after ops4 V)).symm.trans ((c4_cast V).trans (congrArg lsm (rd34 V)))
theorem c4_a0 (V : Valuation τ sig (Elt F)) :
    after (ops4 (F := F)) V (Proc.devRef .tc main_arg0) = V (Proc.devRef .tc main_arg0) := by
  after_results
theorem c4_a1 (V : Valuation τ sig (Elt F)) :
    after (ops4 (F := F)) V (Proc.devRef .tc main_arg1) = V (Proc.devRef .tc main_arg1) := by
  after_results
theorem c4_a2 (V : Valuation τ sig (Elt F)) :
    after (ops4 (F := F)) V (Proc.devRef .tc main_arg2) = V (Proc.devRef .tc main_arg2) := by
  after_results
theorem c4_a3 (V : Valuation τ sig (Elt F)) :
    after (ops4 (F := F)) V (Proc.devRef .tc main_arg3) = V (Proc.devRef .tc main_arg3) := by
  after_results
theorem c4_a4 (V : Valuation τ sig (Elt F)) :
    after (ops4 (F := F)) V (Proc.devRef .tc main_arg4) = V (Proc.devRef .tc main_arg4) := by
  after_results

/-! ## The contents after the whole line -/

/-- The result buffer after the line holds the network of the argument arrays. -/
theorem result_eq (V : Valuation τ sig (Elt F)) :
    after (ops (F := F)) V (Proc.devRef .tc main_v35)
      = net (V (Proc.devRef .tc main_arg0)) (V (Proc.devRef .tc main_arg1)) (V (Proc.devRef .tc main_arg2)) (V (Proc.devRef .tc main_arg3)) (V (Proc.devRef .tc main_arg4)) := by
  rw [ops_split, after_append, after_append, after_append, c4_res, c3_res, c2_res, c2_a1, c2_a4, c1_res, c1_a1, c1_a3, c1_a4]
  rfl

/-- Argument 0 is written by no operation. -/
theorem kept0 (V : Valuation τ sig (Elt F)) : after (ops (F := F)) V (Proc.devRef .tc main_arg0) = V (Proc.devRef .tc main_arg0) := by
  rw [ops_split, after_append, after_append, after_append, c4_a0, c3_a0, c2_a0, c1_a0]

/-- Argument 1 is written by no operation. -/
theorem kept1 (V : Valuation τ sig (Elt F)) : after (ops (F := F)) V (Proc.devRef .tc main_arg1) = V (Proc.devRef .tc main_arg1) := by
  rw [ops_split, after_append, after_append, after_append, c4_a1, c3_a1, c2_a1, c1_a1]

/-- Argument 2 is written by no operation. -/
theorem kept2 (V : Valuation τ sig (Elt F)) : after (ops (F := F)) V (Proc.devRef .tc main_arg2) = V (Proc.devRef .tc main_arg2) := by
  rw [ops_split, after_append, after_append, after_append, c4_a2, c3_a2, c2_a2, c1_a2]

/-- Argument 3 is written by no operation. -/
theorem kept3 (V : Valuation τ sig (Elt F)) : after (ops (F := F)) V (Proc.devRef .tc main_arg3) = V (Proc.devRef .tc main_arg3) := by
  rw [ops_split, after_append, after_append, after_append, c4_a3, c3_a3, c2_a3, c1_a3]

/-- Argument 4 is written by no operation. -/
theorem kept4 (V : Valuation τ sig (Elt F)) : after (ops (F := F)) V (Proc.devRef .tc main_arg4) = V (Proc.devRef .tc main_arg4) := by
  rw [ops_split, after_append, after_append, after_append, c4_a4, c3_a4, c2_a4, c1_a4]

/-- On every device, from any memory with zero counters: every weakly fair execution of @main terminates with the
    result buffer at the network of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v35).trans (result_eq _),
      (h c main_arg0).trans (kept0 _),
      (h c main_arg1).trans (kept1 _),
      (h c main_arg2).trans (kept2 _),
      (h c main_arg3).trans (kept3 _),
      (h c main_arg4).trans (kept4 _)⟩)
    (run_seq scopedRefs_eq scopedSems_eq defs main (fun _ => ops) main_eq (fun _ => ops_sub) m ρ)

end Cert.ReferenceIdeal.RefRun

end
-- ==== Proof.LibRealEntries.lean ====
/-
  Extended reals that are real numbers, and the two laws a graph-convolution network with a log-softmax needs of them.

  On the extended reals the product does not distribute over the sum once an infinity is involved, and a difference
  cannot be regrouped across one; both hold when every term is a real number. The real numbers are closed under
  the sum, the product, the difference, the maximum and finite sums, a maximum taken from the bottom element over a
  non-empty family of reals is a real, and the sum of the exponentials of real numbers is a positive real, whose
  logarithm is again a real. So: a row of sums against weights splits termwise, `∑ (a + b) · w = ∑ a · w + ∑ b · w`,
  and the two usual spellings of a row's log-softmax, `x − (log Σ + m)` and `(x − m) − log Σ`, agree.
-/
import Idealize.ShloMosaic.PureOps.Ideal

noncomputable section

open scoped BigOperators

namespace Cert.Lib.RealEntries

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (g : ι → ℝ) : ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-- Among real numbers the product distributes over the sum. -/
theorem add_mul_of_isReal {a b w : EReal} (ha : IsReal a) (hb : IsReal b) (hw : IsReal w) : (a + b) * w = a * w + b * w := by
  obtain ⟨a, rfl⟩ := ha; obtain ⟨b, rfl⟩ := hb; obtain ⟨w, rfl⟩ := hw
  rw [← EReal.coe_add, ← EReal.coe_mul, ← EReal.coe_mul, ← EReal.coe_mul, ← EReal.coe_add, add_mul]

/-- A ROW OF SUMS AGAINST WEIGHTS splits: `∑ (a + b) · w = ∑ a · w + ∑ b · w` when every entry is a real number. -/
theorem sum_add_mul {ι : Type*} (s : Finset ι) (a b w : ι → EReal) (ha : ∀ i, IsReal (a i)) (hb : ∀ i, IsReal (b i))
    (hw : ∀ i, IsReal (w i)) : ∑ i ∈ s, (a i + b i) * w i = ∑ i ∈ s, a i * w i + ∑ i ∈ s, b i * w i := by
  rw [← Finset.sum_add_distrib]
  exact Finset.sum_congr rfl fun i _ => add_mul_of_isReal (ha i) (hb i) (hw i)

/-- The maximum, taken from the bottom element, of a non-empty family of real numbers is a real number. -/
theorem isReal_fold_max {n : ℕ} (f : Fin (n + 1) → EReal) (hf : ∀ k, IsReal (f k)) :
    IsReal ((Finset.univ : Finset (Fin (n + 1))).fold max ⊥ f) := by
  rw [isReal_iff]
  constructor
  · have h0 : f 0 ≤ (Finset.univ : Finset (Fin (n + 1))).fold max ⊥ f :=
      (Finset.le_fold_max (f 0)).2 (Or.inr ⟨0, Finset.mem_univ _, le_rfl⟩)
    intro hb
    rw [hb] at h0
    exact (isReal_iff.mp (hf 0)).1 (le_bot_iff.mp h0)
  · have h1 : (Finset.univ : Finset (Fin (n + 1))).fold max ⊥ f < ⊤ :=
      (Finset.fold_max_lt ⊤).2 ⟨bot_lt_top, fun k _ => lt_top_iff_ne_top.mpr (isReal_iff.mp (hf k)).2⟩
    exact h1.ne

/-- The exponentials of a non-empty row of real numbers, each shifted by a real number, sum to a positive real. -/
theorem sum_exp_pos {n : ℕ} (f : Fin (n + 1) → EReal) (hf : ∀ k, IsReal (f k)) {M : EReal} (hM : IsReal M) :
    ∃ s : ℝ, 0 < s ∧ ∑ k : Fin (n + 1), Ideal.exp (f k - M) = (s : EReal) := by
  obtain ⟨m, rfl⟩ := hM
  choose g hg using hf
  refine ⟨∑ k : Fin (n + 1), Real.exp (g k - m), Finset.sum_pos (fun k _ => Real.exp_pos _) Finset.univ_nonempty, ?_⟩
  rw [coe_sum]
  refine Finset.sum_congr rfl fun k _ => ?_
  rw [hg k, ← EReal.coe_sub]
  rfl

/-- The logarithm of that sum is a real number. -/
theorem isReal_log_sum_exp {n : ℕ} (f : Fin (n + 1) → EReal) (hf : ∀ k, IsReal (f k)) {M : EReal} (hM : IsReal M) :
    IsReal (Ideal.log (∑ k : Fin (n + 1), Ideal.exp (f k - M))) := by
  obtain ⟨s, hs, e⟩ := sum_exp_pos f hf hM
  rw [e]
  refine ⟨Real.log s, ?_⟩
  show (if s ≤ 0 then (⊥ : EReal) else ((Real.log s : ℝ) : EReal)) = _
  rw [if_neg (not_le.mpr hs)]

/-- THE TWO SPELLINGS OF A ROW'S LOG-SOFTMAX agree on real numbers: the entry less (the logarithm of the shifted
    exponentials' sum plus the shift) is the shifted entry less that logarithm. -/
theorem logSoftmax_regroup {x L M : EReal} (hx : IsReal x) (hL : IsReal L) (hM : IsReal M) : x - (L + M) = (x - M) - L := by
  obtain ⟨a, rfl⟩ := hx; obtain ⟨l, rfl⟩ := hL; obtain ⟨m, rfl⟩ := hM
  rw [← EReal.coe_add, ← EReal.coe_sub, ← EReal.coe_sub, ← EReal.coe_sub]
  congr 1
  ring

end Cert.Lib.RealEntries

end
-- ==== Proof.RefBlock.lean ====
/-
  The reference network read entry by entry, one block of 1024 nodes at a time.

  Row R of the 16384-row feature array is row r of block b, R = 1024 b + r. A layer of the reference computes
  `h · Wᵀ + (A ⊛ h) · Wᵀ`: at row R and column f the first summand is the sum over k of h(R, k) · W(f, k), and the second
  the sum over k of (the sum over the block's 1024 neighbours j of A(b, r, j) · h(1024 b + j, k)) · W(f, k). The block
  network of the specification adds the neighbours' sum to the features BEFORE the product with the weights, and takes the
  neighbours' sum in two halves. The two agree when every entry is a real number: the neighbours' sum splits into its
  halves in any commutative monoid, and the product with the weights distributes over the sum of two real rows. The
  rectifier acts entrywise, and the reference's log-softmax — the row shifted by its maximum, less the logarithm of the
  sum of the shifted exponentials — regroups to the specification's on real rows. Every layer's result is again real.
-/
import proofs.«148717_g20993800142881_cont_sun_c4_339_25_alg».proof.Proof.RefRun
import proofs.«148717_g20993800142881_cont_sun_c4_339_25_alg».proof.Proof.LibDotPlain
import proofs.«148717_g20993800142881_cont_sun_c4_339_25_alg».proof.Proof.LibRowReduce
import proofs.«148717_g20993800142881_cont_sun_c4_339_25_alg».proof.Proof.LibRealEntries
import proofs.«148717_g20993800142881_cont_sun_c4_339_25_alg».proof.Proof.Spec
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefBlock

open Cert.ReferenceIdeal Cert.ReferenceIdeal.Gen Cert.ReferenceIdeal.RefRun Idealize.ShloMosaic Idealize.ShloMosaic.ValueIdx
open Cert.Spec Cert.Lib.RealEntries

/-! ## Blocks -/

/-- Row r of block b in the whole array. -/
def row (b : Fin 16) (r : Fin 1024) : Fin 16384 := ⟨1024 * b.val + r.val, by have := b.isLt; have := r.isLt; omega⟩

/-- Block b of a feature array. -/
def blk (h : FVec Ideal S16384x512 .f32) (b : Fin 16) : Fin 1024 → Fin 512 → EReal := fun r k => h (ix2 (row b r) k)

/-- Block b's adjacency matrix. -/
def adj (A : FVec Ideal S16x1024x1024 .f32) (b : Fin 16) : Fin 1024 → Fin 1024 → EReal := fun r j => A (ix3 b r j)

/-- Every index of the whole array is a row of a block and a column. -/
theorem exists_row (i : S16384x512.Idx) : ∃ (b : Fin 16) (r : Fin 1024) (f : Fin 512), i = ix2 (row b r) f := by
  have h0 : (i 0).val < 16384 := (i 0).isLt
  refine ⟨⟨(i 0).val / 1024, by omega⟩, ⟨(i 0).val % 1024, by omega⟩, ⟨(i 1).val, (i 1).isLt⟩, ?_⟩
  funext a
  apply Fin.ext
  match a with
  | ⟨0, _⟩ => show (i 0).val = 1024 * ((i 0).val / 1024) + (i 0).val % 1024; omega
  | ⟨1, _⟩ => rfl

/-- A sum over a block's 1024 neighbours is the sum over the lower half plus the sum over the upper half. -/
theorem sum_halves {M : Type*} [AddCommMonoid M] (g : Fin 1024 → M) :
    ∑ j : Fin 1024, g j = ∑ j : Fin 512, g (lo j) + ∑ j : Fin 512, g (hi j) :=
  Fin.sum_univ_add (a := 512) (b := 512) g

/-! ## The layout operations at an index -/

theorem to3_apply (x : FVec Ideal S16384x512 .f32) (b : Fin 16) (r : Fin 1024) (k : Fin 512) :
    shapeCast S16x1024x512 x shapeCasts_S16384x512_S16x1024x512 (ix3 b r k) = x (ix2 (row b r) k) :=
  shapeCast_apply x _ _ _ (by
    rw [Shape.rowMajor_val_two, Shape.rowMajor_val_three]
    show (1024 * b.val + r.val) * 512 + k.val = (b.val * 1024 + r.val) * 512 + k.val
    omega)

theorem to2_apply (y : FVec Ideal S16x1024x512 .f32) (b : Fin 16) (r : Fin 1024) (k : Fin 512) :
    shapeCast S16384x512 y shapeCasts_S16x1024x512_S16384x512 (ix2 (row b r) k) = y (ix3 b r k) :=
  shapeCast_apply y _ _ _ (by
    rw [Shape.rowMajor_val_three, Shape.rowMajor_val_two]
    show (b.val * 1024 + r.val) * 512 + k.val = (1024 * b.val + r.val) * 512 + k.val
    omega)

theorem isPlain : DotPlain.IsPlain dot_S16384x512_S512x512_S16384x512_1_0_0_1_n_n := ⟨rfl, rfl, rfl, rfl, rfl, rfl⟩

/-- The product with the transposed weights, at row R and column f: the sum over k of l(R, k) · W(f, k). -/
theorem dotT_apply (l : FVec Ideal S16384x512 .f32) (W : FVec Ideal S512x512 .f32) (R : Fin 16384) (f : Fin 512) :
    Host.dotGeneral (F := Ideal) dot_S16384x512_S512x512_S16384x512_1_0_0_1_n_n none l (transpose S512x512 [1, 0] W transposes_S512x512_S512x512_1_0) (ix2 R f)
      = ∑ k : Fin 512, l (ix2 R k) * W (ix2 f k) := by
  rw [DotPlain.dotGeneral_apply isPlain]
  refine Finset.sum_congr rfl fun k _ => ?_
  show l (ix2 R k) * transpose S512x512 [1, 0] W transposes_S512x512_S512x512_1_0 (ix2 k f) = _
  rw [transpose_ix2_apply]

/-! ## The batched product at an index

At block b, row r and column k the batched product of the adjacency blocks with the features reads the left operand at
(b, r, j) and the right at (b, j, k), j the contracted position. -/

section Batched

/-- The batched product's dimension numbers: batch [0] × [0], contracted [2] × [1]. -/
abbrev dB : DotDims S16x1024x1024 S16x1024x512 S16x1024x512 := dot_S16x1024x1024_S16x1024x512_S16x1024x512_2_1_1_2_0_0

theorem lhsB_0 (i : S16x1024x512.Idx) (q : dB.contr.Idx) : (dB.lhsIdx i q 0).val = (i 0).val := by
  unfold DotDims.lhsIdx
  rw [dif_pos (show (0 : Fin S16x1024x1024.rank) ∈ dB.lhsBatch by decide)]
  rfl
theorem lhsB_1 (i : S16x1024x512.Idx) (q : dB.contr.Idx) : (dB.lhsIdx i q 1).val = (i 1).val := by
  unfold DotDims.lhsIdx
  rw [dif_neg (show ¬(1 : Fin S16x1024x1024.rank) ∈ dB.lhsBatch by decide), dif_pos (show (1 : Fin S16x1024x1024.rank) ∈ dB.lhsNonContracting by decide)]
  rfl
theorem lhsB_2 (i : S16x1024x512.Idx) (q : dB.contr.Idx) : (dB.lhsIdx i q 2).val = (q ⟨0, by decide⟩).val :=
  DotDims.lhsIdx_val_of_single dB rfl i q
theorem rhsB_0 (i : S16x1024x512.Idx) (q : dB.contr.Idx) : (dB.rhsIdx i q 0).val = (i 0).val := by
  unfold DotDims.rhsIdx
  rw [dif_pos (show (0 : Fin S16x1024x512.rank) ∈ dB.rhsBatch by decide)]
  rfl
theorem rhsB_1 (i : S16x1024x512.Idx) (q : dB.contr.Idx) : (dB.rhsIdx i q 1).val = (q ⟨0, by decide⟩).val :=
  DotDims.rhsIdx_val_of_single dB rfl i q
theorem rhsB_2 (i : S16x1024x512.Idx) (q : dB.contr.Idx) : (dB.rhsIdx i q 2).val = (i 2).val := by
  unfold DotDims.rhsIdx
  rw [dif_neg (show ¬(2 : Fin S16x1024x512.rank) ∈ dB.rhsBatch by decide), dif_pos (show (2 : Fin S16x1024x512.rank) ∈ dB.rhsNonContracting by decide)]
  rfl

theorem dotB_apply (A : FVec Ideal S16x1024x1024 .f32) (Y : FVec Ideal S16x1024x512 .f32) (b : Fin 16) (r : Fin 1024) (k : Fin 512) :
    Host.dotGeneral (F := Ideal) dB none A Y (ix3 b r k) = ∑ j : Fin 1024, A (ix3 b r j) * Y (ix3 b j k) := by
  simp only [Host.dotGeneral]
  rw [Ideal.dotGeneral_apply, ← Equiv.sum_comp (ValueIdx.contrEquiv1 dB 1024 rfl rfl).symm]
  refine Finset.sum_congr rfl fun j _ => ?_
  have hj := ValueIdx.contrEquiv1_symm_val dB 1024 rfl rfl j
  have el : dB.lhsIdx (ix3 b r k) ((ValueIdx.contrEquiv1 dB 1024 rfl rfl).symm j) = ix3 b r j := funext fun a => Fin.ext (by
    match a with
    | ⟨0, _⟩ => exact lhsB_0 _ _
    | ⟨1, _⟩ => exact lhsB_1 _ _
    | ⟨2, _⟩ => exact (lhsB_2 _ _).trans hj)
  have er : dB.rhsIdx (ix3 b r k) ((ValueIdx.contrEquiv1 dB 1024 rfl rfl).symm j) = ix3 b j k := funext fun a => Fin.ext (by
    match a with
    | ⟨0, _⟩ => exact rhsB_0 _ _
    | ⟨1, _⟩ => exact (rhsB_1 _ _).trans hj
    | ⟨2, _⟩ => exact rhsB_2 _ _)
  rw [el, er]

end Batched

/-! ## One layer -/

/-- The reference's layer at row r of block b and column f. -/
theorem rLayer_apply (h : FVec Ideal S16384x512 .f32) (A : FVec Ideal S16x1024x1024 .f32) (W : FVec Ideal S512x512 .f32) (b : Fin 16) (r : Fin 1024) (f : Fin 512) :
    rLayer (F := Ideal) h A W (ix2 (row b r) f)
      = ∑ k : Fin 512, h (ix2 (row b r) k) * W (ix2 f k)
        + ∑ k : Fin 512, (∑ j : Fin 1024, A (ix3 b r j) * h (ix2 (row b j) k)) * W (ix2 f k) := by
  unfold rLayer
  rw [to2_apply, addf_apply, to3_apply, to3_apply, dotT_apply, dotT_apply]
  refine congrArg (_ + ·) (Finset.sum_congr rfl fun k _ => ?_)
  rw [to2_apply, dotB_apply]
  refine congrArg (· * _) (Finset.sum_congr rfl fun j _ => ?_)
  rw [to3_apply]

theorem isReal_layerB {A : Fin 1024 → Fin 1024 → EReal} {h : Fin 1024 → Fin 512 → EReal} {W : Fin 512 → Fin 512 → EReal}
    (hA : ∀ r j, IsReal (A r j)) (hh : ∀ r k, IsReal (h r k)) (hW : ∀ f k, IsReal (W f k)) (r : Fin 1024) (f : Fin 512) :
    IsReal (layerB A h W r f) :=
  IsReal.sum _ _ fun k _ => ((hh r k).add ((IsReal.sum _ _ fun j _ => (hA r (lo j)).mul (hh (lo j) k)).add
    (IsReal.sum _ _ fun j _ => (hA r (hi j)).mul (hh (hi j) k)))).mul (hW f k)

/-- ON REAL ENTRIES the reference's layer, block by block, is the specification's layer. -/
theorem rLayer_blk (h : FVec Ideal S16384x512 .f32) (A : FVec Ideal S16x1024x1024 .f32) (W : FVec Ideal S512x512 .f32) (hh : ∀ i, IsReal (h i)) (hA : ∀ i, IsReal (A i)) (hW : ∀ i, IsReal (W i))
    (b : Fin 16) : blk (rLayer (F := Ideal) h A W) b = layerB (adj A b) (blk h b) (cur W) := by
  funext r f
  show rLayer (F := Ideal) h A W (ix2 (row b r) f) = _
  rw [rLayer_apply]
  unfold layerB
  have hs : ∀ k : Fin 512, (∑ j : Fin 512, adj A b r (lo j) * blk h b (lo j) k + ∑ j : Fin 512, adj A b r (hi j) * blk h b (hi j) k)
      = ∑ j : Fin 1024, A (ix3 b r j) * h (ix2 (row b j) k) :=
    fun k => (sum_halves fun j => A (ix3 b r j) * h (ix2 (row b j) k)).symm
  simp only [hs]
  rw [sum_add_mul Finset.univ (fun k => blk h b r k) (fun k => ∑ j : Fin 1024, A (ix3 b r j) * h (ix2 (row b j) k)) (fun k => cur W f k)
    (fun k => hh _) (fun k => IsReal.sum _ _ fun j _ => (hA _).mul (hh _)) (fun k => hW _)]
  rfl

theorem isReal_rLayer (h : FVec Ideal S16384x512 .f32) (A : FVec Ideal S16x1024x1024 .f32) (W : FVec Ideal S512x512 .f32) (hh : ∀ i, IsReal (h i)) (hA : ∀ i, IsReal (A i)) (hW : ∀ i, IsReal (W i))
    (i : S16384x512.Idx) : IsReal (rLayer (F := Ideal) h A W i) := by
  obtain ⟨b, r, f, rfl⟩ := exists_row i
  have e : rLayer (F := Ideal) h A W (ix2 (row b r) f) = layerB (adj A b) (blk h b) (cur W) r f := congrFun (congrFun (rLayer_blk h A W hh hA hW b) r) f
  rw [e]
  exact isReal_layerB (fun _ _ => hA _) (fun _ _ => hh _) (fun _ _ => hW _) r f

/-! ## The rectifier -/

theorem relu_apply (h : FVec Ideal S16384x512 .f32) (i : S16384x512.Idx) : relu (F := Ideal) h i = max (h i) 0 := by
  unfold relu
  rw [maximumf_apply, broadcastInDim_apply _ bcast_S_S16384x512 _ i ix0 (fun a => a.elim0), constant_apply, Ideal.ofBits_zero_f32]

theorem relu_blk (h : FVec Ideal S16384x512 .f32) (b : Fin 16) : blk (relu (F := Ideal) h) b = reluB (blk h b) := by
  funext r f
  exact relu_apply h _

theorem isReal_relu (h : FVec Ideal S16384x512 .f32) (hh : ∀ i, IsReal (h i)) (i : S16384x512.Idx) : IsReal (relu (F := Ideal) h i) := by
  rw [relu_apply]; exact (hh i).max isReal_zero

/-! ## The log-softmax -/

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

theorem ofBits_neg_inf : Ideal.ofBits .f32 0xFF800000#32 = (⊥ : EReal) := by
  simp [Ideal.ofBits, Ideal.ieee]

theorem col_apply (v : FVec Ideal S16384 .f32) (R : Fin 16384) (f : Fin 512) :
    broadcastInDim S16384x512 ![0, 1] bcast_S16384x1_S16384x512_0_1 (broadcastInDim S16384x1 ![0] bcast_S16384_S16384x1_0 v) (ix2 R f) = v (ix1 R) := by
  rw [broadcastInDim_apply _ bcast_S16384x1_S16384x512_0_1 _ (ix2 R f) (ix2 R (0 : Fin 1)) (fun a => match a with
      | ⟨0, _⟩ => by show R.val = if (16384 : Nat) = 1 then 0 else R.val; rw [if_neg (by decide)]
      | ⟨1, _⟩ => by show 0 = if (1 : Nat) = 1 then 0 else f.val; rw [if_pos rfl]),
    broadcastInDim_apply _ bcast_S16384_S16384x1_0 v (ix2 R (0 : Fin 1)) (ix1 R) (fun a => match a with
      | ⟨0, _⟩ => by show R.val = if (16384 : Nat) = 1 then 0 else R.val; rw [if_neg (by decide)])]

/-- The row maximum spread over the row: at (R, f), the maximum from the bottom element of row R. -/
theorem rowMaxB_apply (x : FVec Ideal S16384x512 .f32) (R : Fin 16384) (f : Fin 512) :
    rowMaxB (F := Ideal) x (ix2 R f) = (Finset.univ : Finset (Fin 512)).fold max ⊥ (fun k => x (ix2 R k)) := by
  unfold rowMaxB
  rw [col_apply, maximumf_apply, broadcastInDim_apply _ bcast_S_S16384 _ (ix1 R) ix0 (fun a => a.elim0), constant_apply, ofBits_neg_inf,
    max_eq_right bot_le]
  have hr : S16384x512.Reduces [1] S16384 := by decide
  refine (Host.reduce_eq_fold_single (max : EReal → EReal → EReal) x (constant (F := Ideal) S_ .f32 0xFF800000#32)
    reducesTo_S16384x512_S16384_d1 hr h_S_ (ix1 R)).trans ?_
  rw [constant_apply, ofBits_neg_inf]
  exact congrArg (fun g => Finset.fold max ⊥ g Finset.univ) (funext fun k => congrArg x (RowReduce.lift_row hr R k))

/-- The logarithm of the row sum spread over the row. -/
theorem logSumB_apply (e : FVec Ideal S16384x512 .f32) (R : Fin 16384) (f : Fin 512) :
    logSumB (F := Ideal) e (ix2 R f) = Ideal.log (∑ k : Fin 512, e (ix2 R k)) := by
  unfold logSumB
  have hr : S16384x512.Reduces [1] S16384 := by decide
  rw [broadcastInDim_apply _ bcast_S16384x1_S16384x512_0_1 _ (ix2 R f) (ix2 R (0 : Fin 1)) (fun a => match a with
      | ⟨0, _⟩ => by show R.val = if (16384 : Nat) = 1 then 0 else R.val; rw [if_neg (by decide)]
      | ⟨1, _⟩ => by show 0 = if (1 : Nat) = 1 then 0 else f.val; rw [if_pos rfl])]
  rw [hostLog_apply, broadcastInDim_apply _ bcast_S16384_S16384x1_0 _ (ix2 R (0 : Fin 1)) (ix1 R) (fun a => match a with
      | ⟨0, _⟩ => by show R.val = if (16384 : Nat) = 1 then 0 else R.val; rw [if_neg (by decide)])]
  simp only [Host.reduceAdd, Ideal.hostReduceAdd_def]
  rw [Ideal.hostReduceAdd_single reducesTo_S16384x512_S16384_d1 hr, constant_apply, Ideal.ofBits_zero_f32, zero_add]
  exact congrArg Ideal.log (Finset.sum_congr rfl fun k _ => congrArg e (RowReduce.lift_row hr R k))

/-- ON REAL ENTRIES the reference's log-softmax, block by block, is the specification's. -/
theorem lsm_blk (x : FVec Ideal S16384x512 .f32) (hx : ∀ i, IsReal (x i)) (b : Fin 16) : blk (lsm (F := Ideal) x) b = lsmB (blk x b) := by
  funext r f
  show lsm (F := Ideal) x (ix2 (row b r) f) = _
  unfold lsm
  rw [subf_apply, subf_apply, rowMaxB_apply, logSumB_apply]
  have he : ∀ k : Fin 512, Host.exp (subf x (rowMaxB (F := Ideal) x)) (ix2 (row b r) k)
      = Ideal.exp (x (ix2 (row b r) k) - (Finset.univ : Finset (Fin 512)).fold max ⊥ (fun k => x (ix2 (row b r) k))) := fun k => by
    rw [hostExp_apply, subf_apply, rowMaxB_apply]
  simp only [he]
  have hM : IsReal ((Finset.univ : Finset (Fin 512)).fold max ⊥ (fun k => x (ix2 (row b r) k))) :=
    isReal_fold_max (n := 511) (fun k => x (ix2 (row b r) k)) (fun k => hx _)
  exact (logSoftmax_regroup (hx _) (isReal_log_sum_exp (n := 511) (fun k => x (ix2 (row b r) k)) (fun k => hx _) hM) hM).symm

/-! ## The whole network -/

/-- ON REAL ARGUMENT ARRAYS the reference network, block by block, is the specification's block network on the block's
    adjacency matrix, the block's features and the three weight matrices. -/
theorem net_blk (x : FVec Ideal S16384x512 .f32) (A : FVec Ideal S16x1024x1024 .f32) (W1 W2 W3 : FVec Ideal S512x512 .f32) (hx : ∀ i, IsReal (x i)) (hA : ∀ i, IsReal (A i))
    (h1 : ∀ i, IsReal (W1 i)) (h2 : ∀ i, IsReal (W2 i)) (h3 : ∀ i, IsReal (W3 i)) (b : Fin 16) :
    blk (net (F := Ideal) x A W1 W2 W3) b = netB (adj A b) (blk x b) (cur W1) (cur W2) (cur W3) := by
  have r1 := isReal_relu _ (isReal_rLayer x A W1 hx hA h1)
  have r2 := isReal_relu _ (isReal_rLayer _ A W2 r1 hA h2)
  have r3 := isReal_rLayer _ A W3 r2 hA h3
  unfold net netB
  rw [lsm_blk _ r3, rLayer_blk _ A W3 r2 hA h3, relu_blk, rLayer_blk _ A W2 r1 hA h2, relu_blk, rLayer_blk x A W1 hx hA h1]

end Cert.ReferenceIdeal.RefBlock

end
-- ==== Proof.KernelValue.lean ====
/-
  The kernel's result array is the reference network of the argument arrays.

  Grid point t stages rows 2048 t … 2048 t + 2047 of the features, adjacency blocks 2 t and 2 t + 1 and the three whole
  weight matrices, and writes back rows 2048 t … 2048 t + 2047 of the result: the first 1024 rows are the block network
  on adjacency block 2 t and the first 1024 staged rows, the last 1024 rows the block network on adjacency block 2 t + 1
  and the last 1024 staged rows. Row 2048 t + y of the whole array is row y mod 1024 of block 2 t + y / 1024, so what a
  point writes back is its block of the reference network read block by block (on real entries), and the eight points'
  blocks cover the array.
-/
import proofs.«148717_g20993800142881_cont_sun_c4_339_25_alg».proof.Proof.Gen.KernelIdeal.Value
import proofs.«148717_g20993800142881_cont_sun_c4_339_25_alg».proof.Proof.KernelBlock
import proofs.«148717_g20993800142881_cont_sun_c4_339_25_alg».proof.Proof.RefBlock
import proofs.«148717_g20993800142881_cont_sun_c4_339_25_alg».proof.Proof.Spec
import proofs.«148717_g20993800142881_cont_sun_c4_339_25_alg».proof.Proof.LibRealEntries
import Idealize.ShloMosaic.Lib.ValueLayout
import Idealize.ShloMosaic.Lib.ValueIdx
import Idealize.ShloMosaic.Lib.Pipeline.Value

noncomputable section

namespace Cert.KernelIdeal.Final

open Cert.KernelIdeal Cert.KernelIdeal.Gen Idealize.ShloMosaic Idealize.ShloMosaic.TcCoe Idealize.SL.Sem Idealize.ShloMosaic.ValueIdx
open Cert.Spec Cert.Lib.RealEntries Cert.KernelIdeal.Block
open Idealize.ShloMosaic.Pipeline (Dat)

variable (m : (ℓ : Loc nD τ sig) → Buf (Elt Ideal) ℓ) (ρ : Dev nD → PrngReg)

/-! ## Which block of its array each window stages at a point -/

/-- The printed index maps, decided over the eight grid points: the features, the adjacency and the result move with the
    point along their first axis; the weights stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The staged rows of the features at point t are rows 2048 t … of the array. -/
theorem iblk0_apply (c : Dev nD) (t : Fin cfg0.N) (y : S2048x512.Idx) (k : S16384x512.Idx)
    (hk0 : (k 0).val = 2048 * t.val + (y 0).val) (hk1 : (k 1).val = (y 1).val) :
    (iblk m c 0 t : Vec Ideal S2048x512 .f32) y = (V m c main_arg0 : S16384x512.Idx → EReal) k := by
  obtain ⟨e0, e1, -⟩ := idx_facts t
  unfold iblk
  rw [View.read_apply]
  show (V m c main_arg0 : S16384x512.Idx → EReal) _ = _
  refine congrArg (V m c main_arg0 : S16384x512.Idx → EReal) (funext fun a => Fin.ext ?_)
  match a with
  | ⟨0, _⟩ => show win0_0.index t 0 * 2048 + 1 * (y 0).val = (k 0).val; rw [e0, hk0]; omega
  | ⟨1, _⟩ => show win0_0.index t 1 * 512 + 1 * (y 1).val = (k 1).val; rw [e1, hk1]; omega

/-- The staged adjacency blocks at point t are blocks 2 t and 2 t + 1. -/
theorem iblk1_apply (c : Dev nD) (t : Fin cfg0.N) (y : S2x1024x1024.Idx) (k : S16x1024x1024.Idx)
    (hk0 : (k 0).val = 2 * t.val + (y 0).val) (hk1 : (k 1).val = (y 1).val) (hk2 : (k 2).val = (y 2).val) :
    (iblk m c 1 t : Vec Ideal S2x1024x1024 .f32) y = (V m c main_arg1 : S16x1024x1024.Idx → EReal) k := by
  obtain ⟨-, -, e0, e1, e2, -⟩ := idx_facts t
  unfold iblk
  rw [View.read_apply]
  show (V m c main_arg1 : S16x1024x1024.Idx → EReal) _ = _
  refine congrArg (V m c main_arg1 : S16x1024x1024.Idx → EReal) (funext fun a => Fin.ext ?_)
  match a with
  | ⟨0, _⟩ => show win0_1.index t 0 * 2 + 1 * (y 0).val = (k 0).val; rw [e0, hk0]; omega
  | ⟨1, _⟩ => show win0_1.index t 1 * 1024 + 1 * (y 1).val = (k 1).val; rw [e1, hk1]; omega
  | ⟨2, _⟩ => show win0_1.index t 2 * 1024 + 1 * (y 2).val = (k 2).val; rw [e2, hk2]; omega

/-- The staged weights are the whole weight matrices. -/
theorem iblk2_apply (c : Dev nD) (t : Fin cfg0.N) (y : S512x512.Idx) :
    (iblk m c 2 t : Vec Ideal S512x512 .f32) y = (V m c main_arg2 : S512x512.Idx → EReal) y := by
  obtain ⟨-, -, -, -, -, e0, e1, -⟩ := idx_facts t
  unfold iblk
  rw [View.read_apply]
  show (V m c main_arg2 : S512x512.Idx → EReal) _ = _
  refine congrArg (V m c main_arg2 : S512x512.Idx → EReal) (funext fun a => Fin.ext ?_)
  match a with
  | ⟨0, _⟩ => show win0_2.index t 0 * 512 + 1 * (y 0).val = (y 0).val; rw [e0]; omega
  | ⟨1, _⟩ => show win0_2.index t 1 * 512 + 1 * (y 1).val = (y 1).val; rw [e1]; omega

theorem iblk3_apply (c : Dev nD) (t : Fin cfg0.N) (y : S512x512.Idx) :
    (iblk m c 3 t : Vec Ideal S512x512 .f32) y = (V m c main_arg3 : S512x512.Idx → EReal) y := by
  obtain ⟨-, -, -, -, -, -, -, e0, e1, -⟩ := idx_facts t
  unfold iblk
  rw [View.read_apply]
  show (V m c main_arg3 : S512x512.Idx → EReal) _ = _
  refine congrArg (V m c main_arg3 : S512x512.Idx → EReal) (funext fun a => Fin.ext ?_)
  match a with
  | ⟨0, _⟩ => show win0_3.index t 0 * 512 + 1 * (y 0).val = (y 0).val; rw [e0]; omega
  | ⟨1, _⟩ => show win0_3.index t 1 * 512 + 1 * (y 1).val = (y 1).val; rw [e1]; omega

theorem iblk4_apply (c : Dev nD) (t : Fin cfg0.N) (y : S512x512.Idx) :
    (iblk m c 4 t : Vec Ideal S512x512 .f32) y = (V m c main_arg4 : S512x512.Idx → EReal) y := by
  obtain ⟨-, -, -, -, -, -, -, -, -, e0, e1, -⟩ := idx_facts t
  unfold iblk
  rw [View.read_apply]
  show (V m c main_arg4 : S512x512.Idx → EReal) _ = _
  refine congrArg (V m c main_arg4 : S512x512.Idx → EReal) (funext fun a => Fin.ext ?_)
  match a with
  | ⟨0, _⟩ => show win0_4.index t 0 * 512 + 1 * (y 0).val = (y 0).val; rw [e0]; omega
  | ⟨1, _⟩ => show win0_4.index t 1 * 512 + 1 * (y 1).val = (y 1).val; rw [e1]; omega

/-! ## The body's two stores, read at a row of the staged result block -/

/-- Of two stores, an index outside the later store's rectangle and at position x of the earlier store's holds the earlier
    store's value at x. -/
theorem canon_two {Val : EltTy → Type} [∀ e, Nonempty (Val e)] {S : Shape} {e : EltTy} (rA rB : Rect S)
    (pA : rA.shape.Idx → Val e) (pB : rB.shape.Idx → Val e) (y : S.Idx) (x : rB.shape.Idx) (hn : y ∉ rA.set) (hy : y = rB.emb x) :
    View.canon [(⟨rA, pA⟩ : View.Piece Val S e), ⟨rB, pB⟩] y = pB x := by
  refine (View.canon_cons_of_not_mem (⟨rA, pA⟩ : View.Piece Val S e) [⟨rB, pB⟩] hn).trans ?_
  rw [hy]
  exact View.canon_cons_emb rB pB [] x

/-- A row of the second half of the result block holds the chain's value for the second adjacency block. -/
theorem out_hi (x0 : Vec Ideal S2048x512 .f32) (x1 : Vec Ideal S2x1024x1024 .f32) (x2 x3 x4 : Vec Ideal S512x512 .f32)
    (y : S2048x512.Idx) (h : 1024 ≤ (y 0).val) :
    out0_5 x0 x1 x2 x3 x4 y
      = netOps (k0_pay4 (View.ld x1 r0_1)) (View.ld x0 r0_3) (View.ld x2 r0_4) (View.ld x3 r0_4) (View.ld x4 r0_4)
          (ix2 (⟨(y 0).val - 1024, by have h2 : (y 0).val < 2048 := (y 0).isLt; omega⟩ : Fin 1024) (⟨(y 1).val, (y 1).isLt⟩ : Fin 512)) := by
  have hy : y = r0_3.emb (ix2 (⟨(y 0).val - 1024, by have h2 : (y 0).val < 2048 := (y 0).isLt; omega⟩ : Fin 1024) (⟨(y 1).val, (y 1).isLt⟩ : Fin 512)) :=
    funext fun a => Fin.ext (by
      match a with
      | ⟨0, _⟩ => show (y 0).val = 1024 + 1 * ((y 0).val - 1024); omega
      | ⟨1, _⟩ => show (y 1).val = 0 + 1 * (y 1).val; omega)
  unfold out0_5
  refine (congrArg (View.canon _) hy).trans ?_
  refine (View.canon_cons_emb r0_3 _ _ _).trans ?_
  exact congrFun (piece1_eq (View.ld x1 r0_1) (View.ld x0 r0_3) (View.ld x2 r0_4) (View.ld x3 r0_4) (View.ld x4 r0_4)) _

/-- A row of the first half holds the chain's value for the first adjacency block. -/
theorem out_lo (x0 : Vec Ideal S2048x512 .f32) (x1 : Vec Ideal S2x1024x1024 .f32) (x2 x3 x4 : Vec Ideal S512x512 .f32)
    (y : S2048x512.Idx) (h : (y 0).val < 1024) :
    out0_5 x0 x1 x2 x3 x4 y
      = netOps (k0_pay3 (View.ld x1 r0_0)) (View.ld x0 r0_2) (View.ld x2 r0_4) (View.ld x3 r0_4) (View.ld x4 r0_4)
          (ix2 (⟨(y 0).val, h⟩ : Fin 1024) (⟨(y 1).val, (y 1).isLt⟩ : Fin 512)) := by
  have hy : y = r0_2.emb (ix2 (⟨(y 0).val, h⟩ : Fin 1024) (⟨(y 1).val, (y 1).isLt⟩ : Fin 512)) :=
    funext fun a => Fin.ext (by
      match a with
      | ⟨0, _⟩ => show (y 0).val = 0 + 1 * (y 0).val; omega
      | ⟨1, _⟩ => show (y 1).val = 0 + 1 * (y 1).val; omega)
  have hn : y ∉ r0_3.set := fun hm => Nat.not_le.mpr h ((Rect.mem_set_unit.mp hm 0).1)
  unfold out0_5
  refine (canon_two r0_3 r0_2 _ _ y _ hn hy).trans ?_
  exact congrFun (piece0_eq (View.ld x1 r0_0) (View.ld x0 r0_2) (View.ld x2 r0_4) (View.ld x3 r0_4) (View.ld x4 r0_4)) _

/-! ## The loaded operands of a point are the blocks of the argument arrays -/

section Operands

variable (c : Dev nD) (t : Fin cfg0.N)

theorem t_lt : t.val < 8 := by have h := t.isLt; have hN : cfg0.N = 8 := N_0; omega

/-- The first cast adjacency block of point t is block 2 t of the adjacency array. -/
theorem curA0 : cur (k0_pay3 (View.ld (iblk m c 1 t) r0_0)) = Cert.ReferenceIdeal.RefBlock.adj (V m c main_arg1) ⟨2 * t.val, by have := t_lt t; omega⟩ := by
  funext r j
  show shapeCast S1024x1024 (View.ld (iblk m c 1 t) r0_0) shapeCasts_S1x1024x1024_S1024x1024 (ix2 r j) = _
  rw [shapeCast_1ab_ab_apply]
  exact iblk1_apply m c t _ _ (by show 2 * t.val = 2 * t.val + (0 + 1 * 0); omega) (by show r.val = 0 + 1 * r.val; omega) (by show j.val = 0 + 1 * j.val; omega)

/-- The second is block 2 t + 1. -/
theorem curA1 : cur (k0_pay4 (View.ld (iblk m c 1 t) r0_1)) = Cert.ReferenceIdeal.RefBlock.adj (V m c main_arg1) ⟨2 * t.val + 1, by have := t_lt t; omega⟩ := by
  funext r j
  show shapeCast S1024x1024 (View.ld (iblk m c 1 t) r0_1) shapeCasts_S1x1024x1024_S1024x1024 (ix2 r j) = _
  rw [shapeCast_1ab_ab_apply]
  exact iblk1_apply m c t _ _ (by show 2 * t.val + 1 = 2 * t.val + (1 + 1 * 0); omega) (by show r.val = 0 + 1 * r.val; omega) (by show j.val = 0 + 1 * j.val; omega)

/-- The first 1024 staged rows are block 2 t of the features. -/
theorem curX0 : cur (View.ld (iblk m c 0 t) r0_2) = Cert.ReferenceIdeal.RefBlock.blk (V m c main_arg0) ⟨2 * t.val, by have := t_lt t; omega⟩ := by
  funext r k
  exact iblk0_apply m c t _ _ (by show 1024 * (2 * t.val) + r.val = 2048 * t.val + (0 + 1 * r.val); omega) (by show k.val = 0 + 1 * k.val; omega)

/-- The last 1024 staged rows are block 2 t + 1. -/
theorem curX1 : cur (View.ld (iblk m c 0 t) r0_3) = Cert.ReferenceIdeal.RefBlock.blk (V m c main_arg0) ⟨2 * t.val + 1, by have := t_lt t; omega⟩ := by
  funext r k
  exact iblk0_apply m c t _ _ (by show 1024 * (2 * t.val + 1) + r.val = 2048 * t.val + (1024 + 1 * r.val); omega) (by show k.val = 0 + 1 * k.val; omega)

theorem curW1 : cur (View.ld (iblk m c 2 t) r0_4) = cur (V m c main_arg2 : S512x512.Idx → EReal) := by
  funext f k
  refine (iblk2_apply m c t _).trans (congrArg (V m c main_arg2 : S512x512.Idx → EReal) (funext fun a => Fin.ext ?_))
  match a with
  | ⟨0, _⟩ => show 0 + 1 * f.val = f.val; omega
  | ⟨1, _⟩ => show 0 + 1 * k.val = k.val; omega

theorem curW2 : cur (View.ld (iblk m c 3 t) r0_4) = cur (V m c main_arg3 : S512x512.Idx → EReal) := by
  funext f k
  refine (iblk3_apply m c t _).trans (congrArg (V m c main_arg3 : S512x512.Idx → EReal) (funext fun a => Fin.ext ?_))
  match a with
  | ⟨0, _⟩ => show 0 + 1 * f.val = f.val; omega
  | ⟨1, _⟩ => show 0 + 1 * k.val = k.val; omega

theorem curW3 : cur (View.ld (iblk m c 4 t) r0_4) = cur (V m c main_arg4 : S512x512.Idx → EReal) := by
  funext f k
  refine (iblk4_apply m c t _).trans (congrArg (V m c main_arg4 : S512x512.Idx → EReal) (funext fun a => Fin.ext ?_))
  match a with
  | ⟨0, _⟩ => show 0 + 1 * f.val = f.val; omega
  | ⟨1, _⟩ => show 0 + 1 * k.val = k.val; omega

end Operands

/-! ## What a point writes back, and the whole array -/

/-- The argument arrays as the region finds them hold real numbers. -/
structure RealArgs (c : Dev nD) : Prop where
  x : ∀ i, IsReal ((V m c main_arg0 : S16384x512.Idx → EReal) i)
  a : ∀ i, IsReal ((V m c main_arg1 : S16x1024x1024.Idx → EReal) i)
  w1 : ∀ i, IsReal ((V m c main_arg2 : S512x512.Idx → EReal) i)
  w2 : ∀ i, IsReal ((V m c main_arg3 : S512x512.Idx → EReal) i)
  w3 : ∀ i, IsReal ((V m c main_arg4 : S512x512.Idx → EReal) i)

/-- The reference network of the argument arrays as the region finds them. -/
def G (c : Dev nD) : S16384x512.Idx → EReal :=
  Cert.ReferenceIdeal.RefRun.net (F := Ideal) (V m c main_arg0) (V m c main_arg1) (V m c main_arg2) (V m c main_arg3) (V m c main_arg4)

/-- WHAT POINT t WRITES BACK is its block of the reference network, when the arguments are real. -/
theorem flushed_eq (c : Dev nD) (hR : RealArgs m c) (t : Fin cfg0.N) :
    (dats m 0 c).flushed 5 t = ((cfg0.win 5).blk t).view.read (Elt Ideal) (G m c) := by
  obtain ⟨-, -, -, -, -, -, -, -, -, -, -, e0, e1⟩ := idx_facts t
  have ht := t_lt t
  rw [Value.flushed5]
  funext y
  show out0_5 (iblk m c 0 t) (iblk m c 1 t) (iblk m c 2 t) (iblk m c 3 t) (iblk m c 4 t) y = G m c (((cfg0.win 5).blk t).view.emb y)
  have hy0 : (y 0).val < 2048 := (y 0).isLt
  by_cases h : (y 0).val < 1024
  · have hemb : ((cfg0.win 5).blk t).view.emb y
        = ix2 (Cert.ReferenceIdeal.RefBlock.row ⟨2 * t.val, by omega⟩ (⟨(y 0).val, h⟩ : Fin 1024)) (⟨(y 1).val, (y 1).isLt⟩ : Fin 512) :=
      funext fun a => Fin.ext (by
        match a with
        | ⟨0, _⟩ => show win0_5.index t 0 * 2048 + 1 * (y 0).val = 1024 * (2 * t.val) + (y 0).val; rw [e0]; omega
        | ⟨1, _⟩ => show win0_5.index t 1 * 512 + 1 * (y 1).val = (y 1).val; rw [e1]; omega)
    rw [out_lo _ _ _ _ _ y h, hemb]
    show cur (netOps _ _ _ _ _) _ _ = Cert.ReferenceIdeal.RefBlock.blk (G m c) ⟨2 * t.val, by omega⟩ _ _
    unfold G
    rw [cur_netOps, Cert.ReferenceIdeal.RefBlock.net_blk _ _ _ _ _ hR.x hR.a hR.w1 hR.w2 hR.w3, curA0, curX0, curW1, curW2, curW3]
  · have h' : 1024 ≤ (y 0).val := Nat.le_of_not_lt h
    have hemb : ((cfg0.win 5).blk t).view.emb y
        = ix2 (Cert.ReferenceIdeal.RefBlock.row ⟨2 * t.val + 1, by omega⟩ (⟨(y 0).val - 1024, by omega⟩ : Fin 1024)) (⟨(y 1).val, (y 1).isLt⟩ : Fin 512) :=
      funext fun a => Fin.ext (by
        match a with
        | ⟨0, _⟩ => show win0_5.index t 0 * 2048 + 1 * (y 0).val = 1024 * (2 * t.val + 1) + ((y 0).val - 1024); rw [e0]; omega
        | ⟨1, _⟩ => show win0_5.index t 1 * 512 + 1 * (y 1).val = (y 1).val; rw [e1]; omega)
    rw [out_hi _ _ _ _ _ y h', hemb]
    show cur (netOps _ _ _ _ _) _ _ = Cert.ReferenceIdeal.RefBlock.blk (G m c) ⟨2 * t.val + 1, by omega⟩ _ _
    unfold G
    rw [cur_netOps, Cert.ReferenceIdeal.RefBlock.net_blk _ _ _ _ _ hR.x hR.a hR.w1 hR.w2 hR.w3, curA1, curX1, curW1, curW2, curW3]

/-- An index of the result array is in point t's block iff each coordinate is in the block's range on its axis. -/
theorem mem_blk5 (t : Fin cfg0.N) (i : S16384x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v0).slice (win0_5.rect t)).set ↔ _
  rw [View.set_slice_whole, Rect.mem_set_unit]
  exact Iff.rfl

/-- THE RESULT ARRAY after the run is the reference network of the argument arrays: the eight points' blocks cover it. -/
theorem final (c : Dev nD) (hR : RealArgs m c) : (dats m 0 c).arrAt 5 cfg0.N = G m c :=
  (dats m 0 c).arrAt_eq_of_cover 5 (G m c) (fun t _ => flushed_eq m c hR t) fun i => by
    have hi0 : (i 0).val < 16384 := (i 0).isLt
    have hi1 : (i 1).val < 512 := (i 1).isLt
    have hN : cfg0.N = 8 := N_0
    refine ⟨⟨(i 0).val / 2048, by omega⟩, flush0_5 _, ?_⟩
    obtain ⟨-, -, -, -, -, -, -, -, -, -, -, e0, e1⟩ := idx_facts ⟨(i 0).val / 2048, by omega⟩
    rw [mem_blk5]
    intro a
    match a with
    | ⟨0, _⟩ =>
      show win0_5.index ⟨(i 0).val / 2048, _⟩ 0 * 2048 ≤ (i 0).val ∧ (i 0).val < win0_5.index ⟨(i 0).val / 2048, _⟩ 0 * 2048 + 2048
      rw [e0]
      show (i 0).val / 2048 * 2048 ≤ (i 0).val ∧ (i 0).val < (i 0).val / 2048 * 2048 + 2048
      omega
    | ⟨1, _⟩ =>
      show win0_5.index ⟨(i 0).val / 2048, _⟩ 1 * 512 ≤ (i 1).val ∧ (i 1).val < win0_5.index ⟨(i 0).val / 2048, _⟩ 1 * 512 + 512
      rw [e1]
      omega

/-- The kernel's run with its result array named: the reference network of the argument arrays as launched, when they hold
    real numbers; the arguments unchanged. -/
theorem run (hR : ∀ c, RealArgs m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hR c)), (h c).2⟩) (Value.run_blocks m ρ)

end Cert.KernelIdeal.Final

end
-- ==== Proof.FiniteInputs.lean ====
/-
  The precondition read back: every entry of every argument array is a real number.

  The precondition takes, for each of the five argument arrays, the conjunction over all entries of "the absolute value is
  below +∞", and the conjunction of the five. A conjunction of one-bit words that is 1 has every conjunct 1; an entry
  whose absolute value `max x (−x)` is below the top element is neither infinity, so it is a real number.
-/
import proofs.«148717_g20993800142881_cont_sun_c4_339_25_alg».proof.Pre_finite_inputs
import proofs.«148717_g20993800142881_cont_sun_c4_339_25_alg».proof.Proof.Gen.Pre_finite_inputs
import proofs.«148717_g20993800142881_cont_sun_c4_339_25_alg».proof.Proof.LibRealEntries
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Idealize.ShloMosaic Idealize.ShloMosaic.ValueIdx Cert.Lib.RealEntries

instance : Subsingleton (⟨0, ![]⟩ : Shape).Idx := ⟨fun _ _ => funext fun d => d.elim0⟩

theorem ofBits_inf : Ideal.ofBits .f32 0x7F800000#32 = (⊤ : EReal) := by
  simp [Ideal.ofBits, Ideal.ieee]

/-- An extended real whose absolute value compares below +∞ is a real number. -/
theorem isReal_of_abs_lt (a : EReal)
    (h : FloatOps.cmpf (F := Ideal) (φ := .f32) .olt (FloatOps.hostAbsf a) (Ideal.ofBits .f32 0x7F800000#32) = 1#1) : IsReal a := by
  rw [ofBits_inf] at h
  have h' : max a (-a) < ⊤ := by
    by_contra hn
    have h0 : FloatOps.cmpf (F := Ideal) (φ := .f32) .olt (FloatOps.hostAbsf a) (⊤ : EReal) = 0#1 := by
      show BitVec.ofBool (decide (max a (-a) < ⊤)) = 0#1
      rw [decide_eq_false hn]; rfl
    rw [h0] at h
    exact absurd h (by decide)
  rw [isReal_iff]
  constructor
  · intro hb
    rw [hb, EReal.neg_bot, max_eq_right bot_le] at h'
    exact lt_irrefl _ h'
  · intro ht
    rw [ht, max_eq_left le_top] at h'
    exact lt_irrefl _ h'

/-- One array's conjunct: if the conjunction over all entries of "|x| < +∞" is 1, every entry is a real number. -/
theorem all_real {s : Shape} {axes : List (Fin s.rank)} (x : FVec Ideal s .f32) (hb : (⟨0, ![]⟩ : Shape).BroadcastsInDim s ![])
    (hred : s.ReducesTo axes (⟨0, ![]⟩ : Shape)) (hu : 0 < (⟨0, ![]⟩ : Shape).numel)
    (e : Host.reduce IntOp.andi (cmpf .olt (Host.absf x) (broadcastInDim s ![] hb (constant (F := Ideal) (⟨0, ![]⟩ : Shape) .f32 0x7F800000#32)))
      (constantI (⟨0, ![]⟩ : Shape) 1 1#1) hred hu ix0 = 1#1) (i : s.Idx) : IsReal (x i) := by
  have hi := Host.reduce_andi_all _ _ hred hu ix0 e i
  refine isReal_of_abs_lt (x i) ?_
  have hbc : broadcastInDim s ![] hb (constant (F := Ideal) (⟨0, ![]⟩ : Shape) .f32 0x7F800000#32) i = Ideal.ofBits .f32 0x7F800000#32 :=
    broadcastInDim_apply _ hb _ i ix0 (fun a => a.elim0)
  rw [← hbc]
  exact hi

/-- THE PRECONDITION, of any five arrays: every entry of each is a real number. -/
theorem real_of_pre (x0 : FVec Ideal Cert.Pre_finite_inputs.S16384x512 .f32) (x1 : FVec Ideal Cert.Pre_finite_inputs.S16x1024x1024 .f32)
    (x2 x3 x4 : FVec Ideal Cert.Pre_finite_inputs.S512x512 .f32)
    (h : Cert.Pre_finite_inputs.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real x0 _ _ _ e0, all_real x1 _ _ _ e1, all_real x2 _ _ _ e2, all_real x3 _ _ _ e3, all_real x4 _ _ _ e4⟩

end Cert.Pre_finite_inputs.Finite

end
-- ==== Proof.lean ====
/-
  The certificate of a fused three-layer graph-convolution network with a log-softmax against its layer-by-layer reference.

  The kernel handles the 16 blocks of 1024 nodes two per grid point; per layer it computes `(h + A · h) · Wᵀ` on a block —
  one product with the weights for the features and their neighbours' sum together, the neighbours' sum taken over two
  halves —, applies a maximum with zero after the first two layers, and normalises the third layer's rows by
  `x − (log Σ exp (x − max) + max)`. The reference computes `h · Wᵀ + (A ⊛ h) · Wᵀ` on the whole array, a rectifier, and the
  log-softmax `(x − max) − log Σ exp (x − max)`. Read on the extended reals the two agree wherever every entry is a real
  number: the product distributes over the sum of two real rows, a sum splits into its halves, and the log-softmax
  regroups; the precondition makes every argument entry real, and every layer keeps the entries real. The changes of
  float format on the way into the matrix unit are the identity at the exact instance, and the idealization rewrote no
  operation.
-/
import proofs.«148717_g20993800142881_cont_sun_c4_339_25_alg».proof.Defs
import proofs.«148717_g20993800142881_cont_sun_c4_339_25_alg».proof.Proof.Gen.Kernel
import proofs.«148717_g20993800142881_cont_sun_c4_339_25_alg».proof.Proof.Gen.Kernel.Skeleton
import proofs.«148717_g20993800142881_cont_sun_c4_339_25_alg».proof.Proof.Gen.Kernel.Launch
import proofs.«148717_g20993800142881_cont_sun_c4_339_25_alg».proof.Proof.Gen.Kernel.Points
import proofs.«148717_g20993800142881_cont_sun_c4_339_25_alg».proof.Proof.Gen.Kernel.Frame
import proofs.«148717_g20993800142881_cont_sun_c4_339_25_alg».proof.Proof.Gen.KernelIdeal
import proofs.«148717_g20993800142881_cont_sun_c4_339_25_alg».proof.Proof.Gen.KernelIdeal.Skeleton
import proofs.«148717_g20993800142881_cont_sun_c4_339_25_alg».proof.Proof.Gen.KernelIdeal.Launch
import proofs.«148717_g20993800142881_cont_sun_c4_339_25_alg».proof.Proof.Gen.KernelIdeal.Points
import proofs.«148717_g20993800142881_cont_sun_c4_339_25_alg».proof.Proof.Gen.KernelIdeal.Frame
import proofs.«148717_g20993800142881_cont_sun_c4_339_25_alg».proof.Proof.Gen.ReferenceIdeal
import proofs.«148717_g20993800142881_cont_sun_c4_339_25_alg».proof.Proof.Gen.Pre_finite_inputs
import proofs.«148717_g20993800142881_cont_sun_c4_339_25_alg».proof.Proof.Gen.KernelIdeal.Value
import proofs.«148717_g20993800142881_cont_sun_c4_339_25_alg».proof.Proof.KernelValue
import proofs.«148717_g20993800142881_cont_sun_c4_339_25_alg».proof.Proof.RefRun
import proofs.«148717_g20993800142881_cont_sun_c4_339_25_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Under the precondition every entry of every argument array is a real number. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.RealArgs m c := by
  obtain ⟨h0, h1, h2, h3, h4⟩ := Cert.Pre_finite_inputs.Finite.real_of_pre _ _ _ _ _ (hpre c)
  exact ⟨h0, h1, h2, h3, h4⟩

/-- From memories agreeing on the arguments both programs end with the reference network of the arguments in their
    result arrays: the kernel block by block, the reference by its run. -/
theorem algebraic : Cert.algebraic_KernelIdeal_ReferenceIdeal := by
  intro m ρ m' ρ' hpre hagree
  refine ⟨fun c => Cert.KernelIdeal.Final.G m c, Cert.KernelIdeal.Final.run m ρ (realArgs m hpre), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
